-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S4x16384x512 : Shape := ⟨3, ![4, 16384, 512]⟩
abbrev S4x1x512 : Shape := ⟨3, ![4, 1, 512]⟩
abbrev S4x512x512 : Shape := ⟨3, ![4, 512, 512]⟩
abbrev S1x4096x512 : Shape := ⟨3, ![1, 4096, 512]⟩
abbrev S1x1x512 : Shape := ⟨3, ![1, 1, 512]⟩
abbrev S1x512x512 : Shape := ⟨3, ![1, 512, 512]⟩
abbrev S1x512 : Shape := ⟨2, ![1, 512]⟩
abbrev S512x512 : Shape := ⟨2, ![512, 512]⟩
abbrev S4096x512 : Shape := ⟨2, ![4096, 512]⟩
abbrev S512 : Shape := ⟨1, ![512]⟩
abbrev S_ : Shape := ⟨0, ![]⟩
abbrev S4x512 : Shape := ⟨2, ![4, 512]⟩
abbrev S4x512x1 : Shape := ⟨3, ![4, 512, 1]⟩
abbrev S4 : Shape := ⟨1, ![4]⟩
abbrev S4x1x1 : Shape := ⟨3, ![4, 1, 1]⟩
abbrev S1x2048x512 : Shape := ⟨3, ![1, 2048, 512]⟩
abbrev S2048x512 : Shape := ⟨2, ![2048, 512]⟩

abbrev nBuf : Space → Nat
  | .hbm => 95
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S4x16384x512, .f32⟩
  | .hbm, ⟨2, _⟩ => ⟨S4x1x512, .f32⟩
  | .hbm, ⟨3, _⟩ => ⟨S4x512x512, .f32⟩
  | .hbm, ⟨4, _⟩ => ⟨S_, .f32⟩
  | .hbm, ⟨5, _⟩ => ⟨S4x1x512, .f32⟩
  | .hbm, ⟨6, _⟩ => ⟨S4x1x512, .f32⟩
  | .hbm, ⟨7, _⟩ => ⟨S4x512, .f32⟩
  | .hbm, ⟨8, _⟩ => ⟨S4x512x1, .f32⟩
  | .hbm, ⟨9, _⟩ => ⟨S4x1x512, .f32⟩
  | .hbm, ⟨10, _⟩ => ⟨S4x512x512, .f32⟩
  | .hbm, ⟨11, _⟩ => ⟨S4x512x512, .f32⟩
  | .hbm, ⟨12, _⟩ => ⟨S4x512x512, .f32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S512x512, .f32⟩
  | .hbm, ⟨20, _⟩ => ⟨S1x512x512, .f32⟩
  | .hbm, ⟨21, _⟩ => ⟨S_, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S_, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S4x512x512, .f32⟩
  | .hbm, ⟨30, _⟩ => ⟨S4x512x512, .f32⟩
  | .hbm, ⟨31, _⟩ => ⟨S_, .f32⟩
  | .hbm, ⟨32, _⟩ => ⟨S4, .f32⟩
  | .hbm, ⟨33, _⟩ => ⟨S4x1x1, .f32⟩
  | .hbm, ⟨34, _⟩ => ⟨S4x1x1, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S4x512x512, .f32⟩
  | .hbm, ⟨39, _⟩ => ⟨S4x512x512, .f32⟩
  | .hbm, ⟨40, _⟩ => ⟨S_, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S_, .f32⟩
  | .hbm, ⟨45, _⟩ => ⟨S4x512x512, .f32⟩
  | .hbm, ⟨46, _⟩ => ⟨S4x512x512, .f32⟩
  | .hbm, ⟨47, _⟩ => ⟨S4x512x512, .f32⟩
  | .hbm, ⟨48, _⟩ => ⟨S4x512x512, .f32⟩
  | .hbm, ⟨49, _⟩ => ⟨S4x512x512, .f32⟩
  | .hbm, ⟨50, _⟩ => ⟨S_, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S_, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S4x512x512, .f32⟩
  | .hbm, ⟨59, _⟩ => ⟨S4x512x512, .f32⟩
  | .hbm, ⟨60, _⟩ => ⟨S_, .f32⟩
  | .hbm, ⟨61, _⟩ => ⟨S4x512x512, .f32⟩
  | .hbm, ⟨62, _⟩ => ⟨S4x512x512, .f32⟩
  | .hbm, ⟨63, _⟩ => ⟨S4x512x512, .f32⟩
  | .hbm, ⟨64, _⟩ => ⟨S_, .f32⟩
  | .hbm, ⟨65, _⟩ => ⟨S4x512x512, .f32⟩
  | .hbm, ⟨66, _⟩ => ⟨S4x512x512, .f32⟩
  | .hbm, ⟨67, _⟩ => ⟨S4x512x512, .f32⟩
  | .hbm, ⟨68, _⟩ => ⟨S4x512x512, .f32⟩
  | .hbm, ⟨69, _⟩ => ⟨S4x512x512, .f32⟩
  | .hbm, ⟨70, _⟩ => ⟨S_, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S_, .f32⟩
  | .hbm, ⟨75, _⟩ => ⟨S4x512x512, .f32⟩
  | .hbm, ⟨76, _⟩ => ⟨S4x512x512, .f32⟩
  | .hbm, ⟨77, _⟩ => ⟨S4x512x512, .f32⟩
  | .hbm, ⟨78, _⟩ => ⟨S4x512x512, .f32⟩
  | .hbm, ⟨79, _⟩ => ⟨S4x512x512, .f32⟩
  | .hbm, ⟨80, _⟩ => ⟨S_, .f32⟩
  | .hbm, ⟨81, _⟩ => ⟨S4x512x512, .f32⟩
  | .hbm, ⟨82, _⟩ => ⟨S4x512x512, .f32⟩
  | .hbm, ⟨83, _⟩ => ⟨S4x512x512, .f32⟩
  | .hbm, ⟨84, _⟩ => ⟨S_, .f32⟩
  | .hbm, ⟨85, _⟩ => ⟨S4x512x512, .f32⟩
  | .hbm, ⟨86, _⟩ => ⟨S4x512x512, .f32⟩
  | .hbm, ⟨87, _⟩ => ⟨S4x512x512, .f32⟩
  | .hbm, ⟨88, _⟩ => ⟨S4x512x512, .f32⟩
  | .hbm, ⟨89, _⟩ => ⟨S4x1x1, .f32⟩
  | .hbm, ⟨90, _⟩ => ⟨S4x512x512, .f32⟩
  | .hbm, ⟨91, _⟩ => ⟨S4x512x512, .f32⟩
  | .hbm, ⟨92, _⟩ => ⟨S4x512x512, .bf16⟩
  | .hbm, ⟨93, _⟩ => ⟨S4x16384x512, .f32⟩
  | .hbm, ⟨94, _⟩ => ⟨S16384x2048, .f32⟩
  | .local _ .vmem, ⟨0, _⟩ => ⟨S1x4096x512, .f32⟩
  | .local _ .vmem, ⟨1, _⟩ => ⟨S1x4096x512, .f32⟩
  | .local _ .vmem, ⟨2, _⟩ => ⟨S1x1x512, .f32⟩
  | .local _ .vmem, ⟨3, _⟩ => ⟨S1x1x512, .f32⟩
  | .local _ .vmem, ⟨4, _⟩ => ⟨S1x512x512, .f32⟩
  | .local _ .vmem, ⟨5, _⟩ => ⟨S1x512x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1x512, .f32⟩
  | .local _ .vmem, ⟨9, _⟩ => ⟨S1x1x512, .f32⟩
  | .local _ .vmem, ⟨10, _⟩ => ⟨S1x512x512, .bf16⟩
  | .local _ .vmem, ⟨11, _⟩ => ⟨S1x512x512, .bf16⟩
  | .local _ .vmem, ⟨12, _⟩ => ⟨S1x2048x512, .f32⟩
  | .local _ .vmem, ⟨13, _⟩ => ⟨S1x2048x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_11 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S16384x2048_S4x16384x512 : S16384x2048.ShapeCasts S4x16384x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S4096x512_S512 : S4096x512.Reduces [0] S512
  shapeCasts_S512_S1x512 : S512.ShapeCasts S1x512
  bitsLt_bf16_f32 : FTy.bits .bf16 < FTy.bits .f32
  bcast_S_S4x1x512 : S_.BroadcastsInDim S4x1x512 (![] : Fin 0 → Fin S4x1x512.rank)
  shapeCasts_S4x1x512_S4x512 : S4x1x512.ShapeCasts S4x512
  bcast_S4x512_S4x512x1_0_1 : S4x512.BroadcastsInDim S4x512x1 (![0, 1] : Fin 2 → Fin S4x512x1.rank)
  bcast_S4x512_S4x1x512_0_2 : S4x512.BroadcastsInDim S4x1x512 (![0, 2] : Fin 2 → Fin S4x1x512.rank)
  bcast_S4x512x1_S4x512x512_0_1_2 : S4x512x1.BroadcastsInDim S4x512x512 (![0, 1, 2] : Fin 3 → Fin S4x512x512.rank)
  bcast_S4x1x512_S4x512x512_0_1_2 : S4x1x512.BroadcastsInDim S4x512x512 (![0, 1, 2] : Fin 3 → Fin S4x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S4x512x512 : S_.BroadcastsInDim S4x512x512 (![] : Fin 0 → Fin S4x512x512.rank)
  bcast_S_S1x512x512 : S_.BroadcastsInDim S1x512x512 (![] : Fin 0 → Fin S1x512x512.rank)
  bcast_S1x512x512_S4x512x512_0_1_2 : S1x512x512.BroadcastsInDim S4x512x512 (![0, 1, 2] : Fin 3 → Fin S4x512x512.rank)
  reducesTo_S4x512x512_S4_d1_2 : S4x512x512.ReducesTo [1, 2] S4
  h_S_ : 0 < S_.numel
  bcast_S4_S4x1x1_0 : S4.BroadcastsInDim S4x1x1 (![0] : Fin 1 → Fin S4x1x1.rank)
  bcast_S4x1x1_S4x512x512_0_1_2 : S4x1x1.BroadcastsInDim S4x512x512 (![0, 1, 2] : Fin 3 → Fin S4x512x512.rank)
  transposes_S4x512x512_S4x512x512_0_2_1 : S4x512x512.Transposes [0, 2, 1] S4x512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  broadcasts_S1x512_S2048x512 : S1x512.Broadcasts S2048x512
  shapeCasts_S2048x512_S1x2048x512 : S2048x512.ShapeCasts S1x2048x512
  shapeCasts_S4x16384x512_S16384x2048 : S4x16384x512.ShapeCasts S16384x2048
  dot_S4096x512_S4096x512_S512x512_0_0_1_1_n_n_wf : DotDims.WF S4096x512 S4096x512 S512x512 [0] [0] [1] [1] [] []
  dot_S4x512x512_S4x512x512_S4x512x512_2_1_1_2_0_0_wf : DotDims.WF S4x512x512 S4x512x512 S4x512x512 [2] [1] [1] [2] [0] [0]
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S4x16384x512.size a
  hwx0_0 : ∀ i : grid0.Coords, EltTy.bits .f32 = 32 ∨ (Rect.block (s := S4x16384x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S4x1x512.size a
  hwx0_1 : ∀ i : grid0.Coords, EltTy.bits .f32 = 32 ∨ (Rect.block (s := S4x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x512x512.size a
  hwx0_2 : ∀ i : grid0.Coords, EltTy.bits .f32 = 32 ∨ (Rect.block (s := S4x512x512) S1x512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x16384x512.size a
  hwx1_0 : ∀ i : grid1.Coords, EltTy.bits .f32 = 32 ∨ (Rect.block (s := S4x16384x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S4x1x512.size a
  hwx1_1 : ∀ i : grid1.Coords, EltTy.bits .f32 = 32 ∨ (Rect.block (s := S4x1x512) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S4x512x512.size a
  hwx1_2 : ∀ i : grid1.Coords, EltTy.bits .bf16 = 32 ∨ (Rect.block (s := S4x512x512) S1x512x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S4x16384x512.size a
  hwx1_3 : ∀ i : grid1.Coords, EltTy.bits .f32 = 32 ∨ (Rect.block (s := S4x16384x512) S1x2048x512.size (cc1_transform_3 i) (hinb1_3 i)).WholeWords (EltTy.packing .f32)

variable [Facts₀]

def dot_S4096x512_S4096x512_S512x512_0_0_1_1_n_n : DotDims S4096x512 S4096x512 S512x512 where
  lhsContracting := [0]
  rhsContracting := [0]
  lhsNonContracting := [1]
  rhsNonContracting := [1]
  lhsBatch := []
  rhsBatch := []
  wf := dot_S4096x512_S4096x512_S512x512_0_0_1_1_n_n_wf
def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S4x16384x512 : Shape := ⟨3, ![4, 16384, 512]⟩
abbrev S_ : Shape := ⟨0, ![]⟩
abbrev S4x512 : Shape := ⟨2, ![4, 512]⟩
abbrev S4x1x512 : Shape := ⟨3, ![4, 1, 512]⟩
abbrev S4x512x512 : Shape := ⟨3, ![4, 512, 512]⟩
abbrev S512x512 : Shape := ⟨2, ![512, 512]⟩
abbrev S1x512x512 : Shape := ⟨3, ![1, 512, 512]⟩
abbrev S4 : Shape := ⟨1, ![4]⟩
abbrev S4x1x1 : Shape := ⟨3, ![4, 1, 1]⟩
abbrev S4x512x16384 : Shape := ⟨3, ![4, 512, 16384]⟩

abbrev nBuf : Space → Nat
  | .hbm => 89
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x16384x512, .f32⟩
  | .hbm, ⟨2, _⟩ => ⟨S_, .f32⟩
  | .hbm, ⟨3, _⟩ => ⟨S4x512, .f32⟩
  | .hbm, ⟨4, _⟩ => ⟨S4x1x512, .f32⟩
  | .hbm, ⟨5, _⟩ => ⟨S_, .f32⟩
  | .hbm, ⟨6, _⟩ => ⟨S4x1x512, .f32⟩
  | .hbm, ⟨7, _⟩ => ⟨S4x1x512, .f32⟩
  | .hbm, ⟨8, _⟩ => ⟨S4x16384x512, .f32⟩
  | .hbm, ⟨9, _⟩ => ⟨S4x16384x512, .f32⟩
  | .hbm, ⟨10, _⟩ => ⟨S4x512x512, .f32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S1x512x512, .f32⟩
  | .hbm, ⟨19, _⟩ => ⟨S_, .f32⟩
  | .hbm, ⟨20, _⟩ => ⟨S1x512x512, .f32⟩
  | .hbm, ⟨21, _⟩ => ⟨S1x512x512, .f32⟩
  | .hbm, ⟨22, _⟩ => ⟨S4x512x512, .f32⟩
  | .hbm, ⟨23, _⟩ => ⟨S4x512x512, .f32⟩
  | .hbm, ⟨24, _⟩ => ⟨S4x512x512, .f32⟩
  | .hbm, ⟨25, _⟩ => ⟨S_, .f32⟩
  | .hbm, ⟨26, _⟩ => ⟨S4, .f32⟩
  | .hbm, ⟨27, _⟩ => ⟨S4x1x1, .f32⟩
  | .hbm, ⟨28, _⟩ => ⟨S4x1x1, .f32⟩
  | .hbm, ⟨29, _⟩ => ⟨S4x512x512, .f32⟩
  | .hbm, ⟨30, _⟩ => ⟨S4x512x512, .f32⟩
  | .hbm, ⟨31, _⟩ => ⟨S4x512x512, .f32⟩
  | .hbm, ⟨32, _⟩ => ⟨S4x512x512, .f32⟩
  | .hbm, ⟨33, _⟩ => ⟨S4x512x512, .f32⟩
  | .hbm, ⟨34, _⟩ => ⟨S_, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S_, .f32⟩
  | .hbm, ⟨39, _⟩ => ⟨S4x512x512, .f32⟩
  | .hbm, ⟨40, _⟩ => ⟨S4x512x512, .f32⟩
  | .hbm, ⟨41, _⟩ => ⟨S4x512x512, .f32⟩
  | .hbm, ⟨42, _⟩ => ⟨S4x512x512, .f32⟩
  | .hbm, ⟨43, _⟩ => ⟨S4x512x512, .f32⟩
  | .hbm, ⟨44, _⟩ => ⟨S_, .f32⟩
  | .hbm, ⟨45, _⟩ => ⟨S4x512x512, .f32⟩
  | .hbm, ⟨46, _⟩ => ⟨S4x512x512, .f32⟩
  | .hbm, ⟨47, _⟩ => ⟨S4x512x512, .f32⟩
  | .hbm, ⟨48, _⟩ => ⟨S_, .f32⟩
  | .hbm, ⟨49, _⟩ => ⟨S4x512x512, .f32⟩
  | .hbm, ⟨50, _⟩ => ⟨S4x512x512, .f32⟩
  | .hbm, ⟨51, _⟩ => ⟨S4x512x512, .f32⟩
  | .hbm, ⟨52, _⟩ => ⟨S4x512x512, .f32⟩
  | .hbm, ⟨53, _⟩ => ⟨S4x512x512, .f32⟩
  | .hbm, ⟨54, _⟩ => ⟨S_, .f32⟩
  | .hbm, ⟨55, _⟩ => ⟨S4x512x512, .f32⟩
  | .hbm, ⟨56, _⟩ => ⟨S4x512x512, .f32⟩
  | .hbm, ⟨57, _⟩ => ⟨S4x512x512, .f32⟩
  | .hbm, ⟨58, _⟩ => ⟨S_, .f32⟩
  | .hbm, ⟨59, _⟩ => ⟨S4x512x512, .f32⟩
  | .hbm, ⟨60, _⟩ => ⟨S4x512x512, .f32⟩
  | .hbm, ⟨61, _⟩ => ⟨S4x512x512, .f32⟩
  | .hbm, ⟨62, _⟩ => ⟨S4x512x512, .f32⟩
  | .hbm, ⟨63, _⟩ => ⟨S4x512x512, .f32⟩
  | .hbm, ⟨64, _⟩ => ⟨S_, .f32⟩
  | .hbm, ⟨65, _⟩ => ⟨S4x512x512, .f32⟩
  | .hbm, ⟨66, _⟩ => ⟨S4x512x512, .f32⟩
  | .hbm, ⟨67, _⟩ => ⟨S4x512x512, .f32⟩
  | .hbm, ⟨68, _⟩ => ⟨S_, .f32⟩
  | .hbm, ⟨69, _⟩ => ⟨S4x512x512, .f32⟩
  | .hbm, ⟨70, _⟩ => ⟨S4x512x512, .f32⟩
  | .hbm, ⟨71, _⟩ => ⟨S4x512x512, .f32⟩
  | .hbm, ⟨72, _⟩ => ⟨S4x512x512, .f32⟩
  | .hbm, ⟨73, _⟩ => ⟨S4x512x512, .f32⟩
  | .hbm, ⟨74, _⟩ => ⟨S_, .f32⟩
  | .hbm, ⟨75, _⟩ => ⟨S4x512x512, .f32⟩
  | .hbm, ⟨76, _⟩ => ⟨S4x512x512, .f32⟩
  | .hbm, ⟨77, _⟩ => ⟨S4x512x512, .f32⟩
  | .hbm, ⟨78, _⟩ => ⟨S_, .f32⟩
  | .hbm, ⟨79, _⟩ => ⟨S4x512x512, .f32⟩
  | .hbm, ⟨80, _⟩ => ⟨S4x512x512, .f32⟩
  | .hbm, ⟨81, _⟩ => ⟨S4x512x512, .f32⟩
  | .hbm, ⟨82, _⟩ => ⟨S4x512x16384, .f32⟩
  | .hbm, ⟨83, _⟩ => ⟨S4x512x16384, .f32⟩
  | .hbm, ⟨84, _⟩ => ⟨S4x1x1, .f32⟩
  | .hbm, ⟨85, _⟩ => ⟨S4x512x16384, .f32⟩
  | .hbm, ⟨86, _⟩ => ⟨S4x512x16384, .f32⟩
  | .hbm, ⟨87, _⟩ => ⟨S4x16384x512, .f32⟩
  | .hbm, ⟨88, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_11 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]

class Facts₀ : Prop where
  shapeCasts_S16384x2048_S4x16384x512 : S16384x2048.ShapeCasts S4x16384x512
  reducesTo_S4x16384x512_S4x512_d1 : S4x16384x512.ReducesTo [1] S4x512
  h_S_ : 0 < S_.numel
  bcast_S4x512_S4x1x512_0_2 : S4x512.BroadcastsInDim S4x1x512 (![0, 2] : Fin 2 → Fin S4x1x512.rank)
  bcast_S_S4x1x512 : S_.BroadcastsInDim S4x1x512 (![] : Fin 0 → Fin S4x1x512.rank)
  bcast_S4x1x512_S4x16384x512_0_1_2 : S4x1x512.BroadcastsInDim S4x16384x512 (![0, 1, 2] : Fin 3 → Fin S4x16384x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  bcast_S1x512x512_S4x512x512_0_1_2 : S1x512x512.BroadcastsInDim S4x512x512 (![0, 1, 2] : Fin 3 → Fin S4x512x512.rank)
  reducesTo_S4x512x512_S4_d1_2 : S4x512x512.ReducesTo [1, 2] S4
  bcast_S4_S4x1x1_0 : S4.BroadcastsInDim S4x1x1 (![0] : Fin 1 → Fin S4x1x1.rank)
  bcast_S4x1x1_S4x512x512_0_1_2 : S4x1x1.BroadcastsInDim S4x512x512 (![0, 1, 2] : Fin 3 → Fin S4x512x512.rank)
  bcast_S_S4x512x512 : S_.BroadcastsInDim S4x512x512 (![] : Fin 0 → Fin S4x512x512.rank)
  transposes_S4x16384x512_S4x512x16384_0_2_1 : S4x16384x512.Transposes [0, 2, 1] S4x512x16384
  bcast_S4x1x1_S4x512x16384_0_1_2 : S4x1x1.BroadcastsInDim S4x512x16384 (![0, 1, 2] : Fin 3 → Fin S4x512x16384.rank)
  transposes_S4x512x16384_S4x16384x512_0_2_1 : S4x512x16384.Transposes [0, 2, 1] S4x16384x512
  shapeCasts_S4x16384x512_S16384x2048 : S4x16384x512.ShapeCasts S16384x2048
  dot_S4x16384x512_S4x16384x512_S4x512x512_1_1_2_2_0_0_wf : DotDims.WF S4x16384x512 S4x16384x512 S4x512x512 [1] [1] [2] [2] [0] [0]
  dot_S4x512x512_S4x512x512_S4x512x512_2_1_1_2_0_0_wf : DotDims.WF S4x512x512 S4x512x512 S4x512x512 [2] [1] [1] [2] [0] [0]
  dot_S4x512x512_S4x512x16384_S4x512x16384_2_1_1_2_0_0_wf : DotDims.WF S4x512x512 S4x512x16384 S4x512x16384 [2] [1] [1] [2] [0] [0]

variable [Facts₀]

def dot_S4x16384x512_S4x16384x512_S4x512x512_1_1_2_2_0_0 : DotDims S4x16384x512 S4x16384x512 S4x512x512 where
  lhsContracting := [1]
  rhsContracting := [1]
  lhsNonContracting := [2]
  rhsNonContracting := [2]
  lhsBatch := [0]
  rhsBatch := [0]
  wf := dot_S4x16384x512_S4x16384x512_S4x512x512_1_1_2_2_0_0_wf
def dot_S4x512x512_S4x512x512_S4x512x512_2_1_1_2_0_0 : DotDims S4x512x512 S4x512x512 S4x512x512 where
  lhsContracting := [2]
  rhsContracting := [1]
  lhsNonContracting := [1]
  rhsNonContracting := [2]
  lhsBatch := [0]
  rhsBatch := [0]
  wf := dot_S4x512x512_S4x512x512_S4x512x512_2_1_1_2_0_0_wf
def dot_S4x512x512_S4x512x16384_S4x512x16384_2_1_1_2_0_0 : DotDims S4x512x512 S4x512x16384 S4x512x16384 where
  lhsContracting := [2]
  rhsContracting := [1]
  lhsNonContracting := [1]
  rhsNonContracting := [2]
  lhsBatch := [0]
  rhsBatch := [0]
  wf := dot_S4x512x512_S4x512x16384_S4x512x16384_2_1_1_2_0_0_wf

class Facts : Prop extends Facts₀ where

variable [Facts]
-- ==== Proof.KRun.lean ====
/-
  The idealized kernel program's run with its result named.  The program is five segments: host operations, the
  statistics pass, host operations, the apply pass, host operations.  The segments' run ends with every unscoped
  buffer at the last boundary's contents; read at the result buffer this gives the result as those contents there,
  and read at the argument it gives the argument unchanged.
-/
import proofs.«101521_j38826504356590_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument as launched. -/
theorem run_value : θ_run defs (onTc (τ := τ) (main (F := F))) ⟨m, fun _ => 0, ρ⟩ (fun r => ∀ c : Dev nD,
      r.2.mem ((c.tc : Thread nD τ).loc main_v77) = W5 m ρ c (Proc.devRef .tc main_v77)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v77 (by decide)),
       (h c _ (mem_uc main_arg0 (by decide))).trans (W5_main_arg0 m ρ c)⟩)

end Cert.KernelIdeal.RunValue

end
-- ==== Proof.Spec.lean ====
/-
  Group whitening of an n × c array read as g groups of N samples of d channels: per group, the column means,
  the centred samples, their covariance, and the product of the centred samples with a d × d matrix.  Stated
  index by index over the extended reals for a 4 × 16384 × 512 array; nothing here knows a program.
-/
import Idealize.ShloMosaic.PureOps.Ideal
import Idealize.ShloMosaic.PureOps.Ideal.Laws
import Idealize.ShloMosaic.Lib.ValueIdx

noncomputable section

open scoped BigOperators

namespace Cert.Whiten

open Idealize.ShloMosaic Idealize.ShloMosaic.ValueIdx

/-- The samples: group × sample × channel. -/
abbrev SZ : Shape := ⟨3, ![4, 16384, 512]⟩
/-- A per-group square matrix: group × channel × channel. -/
abbrev SB : Shape := ⟨3, ![4, 512, 512]⟩

/-- The sample count 16384 as both programs spell it. -/
abbrev nWord : EReal := Ideal.ofBits .f32 0x46800000#32

/-- The sum of channel `d` over the samples of group `g`. -/
def colSum (Z : SZ.Idx → EReal) (g : Fin 4) (d : Fin 512) : EReal := ∑ n : Fin 16384, Z (ix3 g n d)

/-- The uncentred second moment of channels `d`, `e` over the samples of group `g`. -/
def gram (Z : SZ.Idx → EReal) (g : Fin 4) (d e : Fin 512) : EReal :=
  ∑ n : Fin 16384, Z (ix3 g n d) * Z (ix3 g n e)

/-- The mean of channel `d` in group `g`: the column sum divided by the sample count. -/
def mean (Z : SZ.Idx → EReal) (g : Fin 4) (d : Fin 512) : EReal := Ideal.div (colSum Z g d) nWord

/-- A centred sample entry. -/
def cen (Z : SZ.Idx → EReal) (g : Fin 4) (n : Fin 16384) (d : Fin 512) : EReal := Z (ix3 g n d) - mean Z g d

/-- The centred second moment (covariance times the sample count) of channels `d`, `e` in group `g`. -/
def cov (Z : SZ.Idx → EReal) (g : Fin 4) (d e : Fin 512) : EReal := ∑ n : Fin 16384, cen Z g n d * cen Z g n e

end Cert.Whiten

end
-- ==== Proof.Chain.lean ====
/-
  The part both programs share, as functions of the regularised covariance S (4 × 512 × 512): the identity
  matrix, eps · identity, the Frobenius norm of each group's S, S divided by it, and five Newton–Schulz steps
  B ↦ 1.5 B − 0.5 (B B B) Sₙ from the identity.  The shape facts the operations cite are parameters, so that each
  program's own spelling is an instance.  Nothing here knows a program.
-/
import Idealize.ShloMosaic.PureOps.Ideal
import Idealize.ShloMosaic.PureOps.Ideal.Laws
import Idealize.ShloMosaic.Lib.ValueIdx
import proofs.«101521_j38826504356590_2_alg».proof.Proof.Spec

noncomputable section

open scoped BigOperators

namespace Cert.Whiten

open Idealize.ShloMosaic Idealize.ShloMosaic.ValueIdx

abbrev S0 : Shape := ⟨0, ![]⟩
abbrev SG : Shape := ⟨1, ![4]⟩
abbrev SG11 : Shape := ⟨3, ![4, 1, 1]⟩
abbrev SE : Shape := ⟨2, ![512, 512]⟩
abbrev SE1 : Shape := ⟨3, ![1, 512, 512]⟩

/-- The 512 × 512 identity as the programs build it: the comparison of a row iota (plus zero) with a column iota,
    converted to a float, with a leading unit axis. -/
def eye1 (hb0 : S0.BroadcastsInDim SE (![] : Fin 0 → Fin SE.rank))
    (hb1 : SE.BroadcastsInDim SE1 (![1, 2] : Fin 2 → Fin SE1.rank)) : FVec Ideal SE1 .f32 :=
  broadcastInDim SE1 ![1, 2] hb1 (uitofp .f32 (cmpi .eq (addi (iotaInDim SE 32 0) (broadcastInDim SE ![] hb0 (constantI S0 32 0#32))) (iotaInDim SE 32 1)))

/-- eps · identity, repeated for each group. -/
def epsEye (hbe : S0.BroadcastsInDim SE1 (![] : Fin 0 → Fin SE1.rank))
    (hb14 : SE1.BroadcastsInDim SB (![0, 1, 2] : Fin 3 → Fin SB.rank)) (I1 : FVec Ideal SE1 .f32) : FVec Ideal SB .f32 :=
  broadcastInDim SB ![0, 1, 2] hb14 (mulf (broadcastInDim SE1 ![] hbe (constant (F := Ideal) S0 .f32 0x3727C5AC#32)) I1)

/-- The Frobenius norm of each group's matrix, as a 4 × 1 × 1 array. -/
def nrmArr (hred : SB.ReducesTo [1, 2] SG) (h0 : 0 < S0.numel)
    (hb : SG.BroadcastsInDim SG11 (![0] : Fin 1 → Fin SG11.rank)) (S : FVec Ideal SB .f32) : FVec Ideal SG11 .f32 :=
  Host.sqrt (broadcastInDim SG11 ![0] hb (Host.reduceAdd (mulf S S) (constant (F := Ideal) S0 .f32 0x00000000#32) hred h0))

/-- One Newton–Schulz step. -/
def nsStep (D : DotDims SB SB SB) (hbS : S0.BroadcastsInDim SB (![] : Fin 0 → Fin SB.rank))
    (Sn B : FVec Ideal SB .f32) : FVec Ideal SB .f32 :=
  subf (mulf (broadcastInDim SB ![] hbS (constant (F := Ideal) S0 .f32 0x3FC00000#32)) B)
    (mulf (broadcastInDim SB ![] hbS (constant (F := Ideal) S0 .f32 0x3F000000#32))
      (Host.dotGeneral D none (Host.dotGeneral D none (Host.dotGeneral D none B B) B) Sn))

/-- Five steps from the identity, on S divided by its norm. -/
def nsB (D : DotDims SB SB SB) (hbS : S0.BroadcastsInDim SB (![] : Fin 0 → Fin SB.rank))
    (hb4 : SG11.BroadcastsInDim SB (![0, 1, 2] : Fin 3 → Fin SB.rank))
    (hb14 : SE1.BroadcastsInDim SB (![0, 1, 2] : Fin 3 → Fin SB.rank))
    (I1 : FVec Ideal SE1 .f32) (S : FVec Ideal SB .f32) (nr : FVec Ideal SG11 .f32) : FVec Ideal SB .f32 :=
  nsStep D hbS (Host.divf S (broadcastInDim SB ![0, 1, 2] hb4 nr))
    (nsStep D hbS (Host.divf S (broadcastInDim SB ![0, 1, 2] hb4 nr))
      (nsStep D hbS (Host.divf S (broadcastInDim SB ![0, 1, 2] hb4 nr))
        (nsStep D hbS (Host.divf S (broadcastInDim SB ![0, 1, 2] hb4 nr))
          (nsStep D hbS (Host.divf S (broadcastInDim SB ![0, 1, 2] hb4 nr)) (broadcastInDim SB ![0, 1, 2] hb14 I1)))))

end Cert.Whiten

end
-- ==== Proof.KHost.lean ====
/-
  The idealized kernel program's host operations as functions of what the two passes leave.  Before the
  statistics pass: the input reshaped to 4 × 16384 × 512.  Between the passes: the mean (sums / 16384), the
  regularised covariance S = gram − 16384 · mean · meanᵀ + eps · identity, and the matrix handed to the apply pass,
  the transpose of the Newton–Schulz matrix of S divided by the square root of S's norm.  After the apply pass:
  the reshape back.
-/
import proofs.«101521_j38826504356590_2_alg».proof.Proof.Gen.KernelIdeal.Frame
import proofs.«101521_j38826504356590_2_alg».proof.Proof.Chain

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

/-- The mean: the column sums divided by the sample count. -/
def meanArr (sum : FVec Ideal S4x1x512 .f32) : FVec Ideal S4x1x512 .f32 :=
  Host.divf sum (broadcastInDim S4x1x512 ![] bcast_S_S4x1x512 (constant (F := Ideal) S_ .f32 0x46800000#32))

/-- The mean as a 4 × 512 array. -/
def mean2 (sum : FVec Ideal S4x1x512 .f32) : FVec Ideal S4x512 .f32 :=
  shapeCast S4x512 (meanArr sum) shapeCasts_S4x1x512_S4x512

/-- The regularised covariance from the sums and the uncentred second moment. -/
def kS (sum : FVec Ideal S4x1x512 .f32) (gram : FVec Ideal S4x512x512 .f32) : FVec Ideal S4x512x512 .f32 :=
  addf (subf gram (mulf (broadcastInDim S4x512x512 ![] bcast_S_S4x512x512 (constant (F := Ideal) S_ .f32 0x46800000#32))
      (mulf (broadcastInDim S4x512x512 ![0, 1, 2] bcast_S4x512x1_S4x512x512_0_1_2 (broadcastInDim S4x512x1 ![0, 1] bcast_S4x512_S4x512x1_0_1 (mean2 sum)))
        (broadcastInDim S4x512x512 ![0, 1, 2] bcast_S4x1x512_S4x512x512_0_1_2 (broadcastInDim S4x1x512 ![0, 2] bcast_S4x512_S4x1x512_0_2 (mean2 sum))))))
    (Cert.Whiten.epsEye bcast_S_S1x512x512 bcast_S1x512x512_S4x512x512_0_1_2 (Cert.Whiten.eye1 bcast_S_S512x512 bcast_S512x512_S1x512x512_1_2))

/-- The norm array of that covariance. -/
def kNrm (sum : FVec Ideal S4x1x512 .f32) (gram : FVec Ideal S4x512x512 .f32) : FVec Ideal S4x1x1 .f32 :=
  Cert.Whiten.nrmArr reducesTo_S4x512x512_S4_d1_2 h_S_ bcast_S4_S4x1x1_0 (kS sum gram)

/-- Its Newton–Schulz matrix. -/
def kB (sum : FVec Ideal S4x1x512 .f32) (gram : FVec Ideal S4x512x512 .f32) : FVec Ideal S4x512x512 .f32 :=
  Cert.Whiten.nsB dot_S4x512x512_S4x512x512_S4x512x512_2_1_1_2_0_0 bcast_S_S4x512x512 bcast_S4x1x1_S4x512x512_0_1_2
    bcast_S1x512x512_S4x512x512_0_1_2 (Cert.Whiten.eye1 bcast_S_S512x512 bcast_S512x512_S1x512x512_1_2) (kS sum gram) (kNrm sum gram)

/-- The matrix handed to the apply pass. -/
def kBt (sum : FVec Ideal S4x1x512 .f32) (gram : FVec Ideal S4x512x512 .f32) : FVec Ideal S4x512x512 .bf16 :=
  truncf .bf16 (Host.divf (transpose S4x512x512 [0, 2, 1] (kB sum gram) transposes_S4x512x512_S4x512x512_0_2_1)
    (broadcastInDim S4x512x512 ![0, 1, 2] bcast_S4x1x1_S4x512x512_0_1_2 (Host.sqrt (kNrm sum gram)))) bitsLt_bf16_f32

variable (m : (ℓ : Loc nD τ sig) → Buf (Elt Ideal) ℓ) (ρ : Dev nD → PrngReg)

/-- The samples as the statistics pass finds them: the input reshaped. -/
theorem V1_v0 (c : Dev nD) :
    (V1 m ρ c main_v0 : FVec Ideal S4x16384x512 .f32)
      = shapeCast S4x16384x512 (m ((c : Thread nD τ).loc main_arg0)) shapeCasts_S16384x2048_S4x16384x512 := by
  show StableHlo.after hostOps0 (W0 m ρ c) (Proc.devRef .tc main_v0) = _
  after_results
  rfl

/-- The sums and the second moment as the statistics pass leaves them. -/
abbrev sumArr (c : Dev nD) : FVec Ideal S4x1x512 .f32 := W2 m ρ c (Proc.devRef .tc main_v1_0)
abbrev gramArr (c : Dev nD) : FVec Ideal S4x512x512 .f32 := W2 m ρ c (Proc.devRef .tc main_v1_1)

/-- The apply pass finds the samples as the statistics pass found them. -/
theorem V3_v0 (c : Dev nD) : V3 m ρ c main_v0 = V1 m ρ c main_v0 := by
  have h1 : W3 m ρ c (Proc.devRef .tc main_v0) = W2 m ρ c (Proc.devRef .tc main_v0) := by
    show StableHlo.after hostOps1 (W2 m ρ c) (Proc.devRef .tc main_v0) = _
    generalize W2 m ρ c = W
    after_results_simp
  refine h1.trans ((W2_arr m ρ c 0).trans ?_)
  exact ((dat0 (V1 m ρ) c).arrAt_in 0 rfl cfg0.N).trans (A_eq0 (V1 m ρ) c 0)

/-- The apply pass finds the mean. -/
theorem V3_v3 (c : Dev nD) : (V3 m ρ c main_v3 : FVec Ideal S4x1x512 .f32) = meanArr (sumArr m ρ c) := by
  show StableHlo.after hostOps1 (W2 m ρ c) (Proc.devRef .tc main_v3) = meanArr (W2 m ρ c (Proc.devRef .tc main_v1_0))
  generalize W2 m ρ c = W
  after_results_simp
  rfl

set_option maxHeartbeats 4000000 in
/-- The apply pass finds the scaled transposed Newton–Schulz matrix. -/
theorem V3_v75 (c : Dev nD) :
    (V3 m ρ c main_v75 : FVec Ideal S4x512x512 .bf16) = kBt (sumArr m ρ c) (gramArr m ρ c) := by
  show StableHlo.after hostOps1 (W2 m ρ c) (Proc.devRef .tc main_v75)
    = kBt (W2 m ρ c (Proc.devRef .tc main_v1_0)) (W2 m ρ c (Proc.devRef .tc main_v1_1))
  generalize W2 m ρ c = W
  after_results_simp
  rfl

/-- The result is the reshape of what the apply pass leaves. -/
theorem W5_v77 (c : Dev nD) :
    (W5 m ρ c (Proc.devRef .tc main_v77) : FVec Ideal S16384x2048 .f32)
      = shapeCast S16384x2048 ((dat1 (V3 m ρ) c).arrAt 3 cfg1.N) shapeCasts_S4x16384x512_S16384x2048 := by
  have h : W5 m ρ c (Proc.devRef .tc main_v77)
      = shapeCast S16384x2048 (W4 m ρ c (Proc.devRef .tc main_v76)) shapeCasts_S4x16384x512_S16384x2048 := by
    show StableHlo.after hostOps2 (W4 m ρ c) (Proc.devRef .tc main_v77) = _
    generalize W4 m ρ c = W
    after_results
    rfl
  rw [h]
  exact congrArg (fun x => shapeCast S16384x2048 x shapeCasts_S4x16384x512_S16384x2048) (W4_arr m ρ c 3)

end Cert.KernelIdeal.KHost

end
-- ==== Proof.KRead.lean ====
/-
  The kernel program's host quantities read at an entry: the mean is the column sum over the sample count; the
  regularised covariance at (g, d, e) is gram − N · mean_d · mean_e + eps · identity; the matrix handed to the apply
  pass at (g, e, d) is the Newton–Schulz matrix at (g, d, e) over the square root of the group's norm.
-/
import Idealize.ShloMosaic.Lib.Pipeline.Value
import Idealize.ShloMosaic.Lib.ValueLayout
import proofs.«101521_j38826504356590_2_alg».proof.Proof.KHost

noncomputable section

namespace Cert.KernelIdeal.KRead

open Cert.KernelIdeal Cert.KernelIdeal.Gen Cert.KernelIdeal.KHost Idealize.ShloMosaic Idealize.ShloMosaic.ValueIdx

/-- The mean at (g, 0, d). -/
theorem meanArr_apply (sum : FVec Ideal S4x1x512 .f32) (g : Fin 4) (d : Fin 512) :
    meanArr sum (ix3 g (0 : Fin 1) d) = Ideal.div (sum (ix3 g (0 : Fin 1) d)) Cert.Whiten.nWord := by
  unfold meanArr
  show Ideal.div (sum (ix3 g (0 : Fin 1) d))
    (broadcastInDim S4x1x512 ![] bcast_S_S4x1x512 (constant (F := Ideal) S_ .f32 0x46800000#32) (ix3 g (0 : Fin 1) d)) = _
  rw [broadcastInDim_apply _ bcast_S_S4x1x512 _ (ix3 g (0 : Fin 1) d) ix0 (fun a => a.elim0)]
  rfl

/-- The mean as a 4 × 512 array at (g, d). -/
theorem mean2_apply (sum : FVec Ideal S4x1x512 .f32) (g : Fin 4) (d : Fin 512) :
    mean2 sum (ix2 g d) = Ideal.div (sum (ix3 g (0 : Fin 1) d)) Cert.Whiten.nWord := by
  unfold mean2
  rw [shapeCast_apply (meanArr sum) shapeCasts_S4x1x512_S4x512 (ix2 g d) (ix3 g (0 : Fin 1) d) (by
    rw [Shape.rowMajor_val_three, Shape.rowMajor_val_two]
    show (g.val * 1 + 0) * 512 + d.val = g.val * 512 + d.val
    omega)]
  exact meanArr_apply sum g d

/-- The regularised covariance at (g, d, e). -/
theorem kS_apply (sum : FVec Ideal S4x1x512 .f32) (gram : FVec Ideal S4x512x512 .f32) (g : Fin 4) (d e : Fin 512) :
    kS sum gram (ix3 g d e)
      = (gram (ix3 g d e) - Cert.Whiten.nWord * (Ideal.div (sum (ix3 g (0 : Fin 1) d)) Cert.Whiten.nWord
            * Ideal.div (sum (ix3 g (0 : Fin 1) e)) Cert.Whiten.nWord))
        + Cert.Whiten.epsEye bcast_S_S1x512x512 bcast_S1x512x512_S4x512x512_0_1_2
            (Cert.Whiten.eye1 bcast_S_S512x512 bcast_S512x512_S1x512x512_1_2) (ix3 g d e) := by
  have h1 : broadcastInDim S4x512x512 ![] bcast_S_S4x512x512 (constant (F := Ideal) S_ .f32 0x46800000#32) (ix3 g d e)
      = Cert.Whiten.nWord := by
    rw [broadcastInDim_apply _ bcast_S_S4x512x512 _ (ix3 g d e) ix0 (fun a => a.elim0)]
    rfl
  have h2 : broadcastInDim S4x512x512 ![0, 1, 2] bcast_S4x512x1_S4x512x512_0_1_2
      (broadcastInDim S4x512x1 ![0, 1] bcast_S4x512_S4x512x1_0_1 (mean2 sum)) (ix3 g d e) = mean2 sum (ix2 g d) := by
    rw [broadcastInDim_apply _ bcast_S4x512x1_S4x512x512_0_1_2 _ (ix3 g d e) (ix3 g d (0 : Fin 1)) (fun a => by
        match a with
        | ⟨0, _⟩ => rfl
        | ⟨1, _⟩ => rfl
        | ⟨2, _⟩ => rfl),
      broadcastInDim_apply _ bcast_S4x512_S4x512x1_0_1 _ (ix3 g d (0 : Fin 1)) (ix2 g d) (fun a => by
        match a with
        | ⟨0, _⟩ => rfl
        | ⟨1, _⟩ => rfl)]
  have h3 : broadcastInDim S4x512x512 ![0, 1, 2] bcast_S4x1x512_S4x512x512_0_1_2
      (broadcastInDim S4x1x512 ![0, 2] bcast_S4x512_S4x1x512_0_2 (mean2 sum)) (ix3 g d e) = mean2 sum (ix2 g e) := by
    rw [broadcastInDim_apply _ bcast_S4x1x512_S4x512x512_0_1_2 _ (ix3 g d e) (ix3 g (0 : Fin 1) e) (fun a => by
        match a with
        | ⟨0, _⟩ => rfl
        | ⟨1, _⟩ => rfl
        | ⟨2, _⟩ => rfl),
      broadcastInDim_apply _ bcast_S4x512_S4x1x512_0_2 _ (ix3 g (0 : Fin 1) e) (ix2 g e) (fun a => by
        match a with
        | ⟨0, _⟩ => rfl
        | ⟨1, _⟩ => rfl)]
  unfold kS
  show (gram (ix3 g d e)
      - broadcastInDim S4x512x512 ![] bcast_S_S4x512x512 (constant (F := Ideal) S_ .f32 0x46800000#32) (ix3 g d e)
        * (broadcastInDim S4x512x512 ![0, 1, 2] bcast_S4x512x1_S4x512x512_0_1_2
              (broadcastInDim S4x512x1 ![0, 1] bcast_S4x512_S4x512x1_0_1 (mean2 sum)) (ix3 g d e)
            * broadcastInDim S4x512x512 ![0, 1, 2] bcast_S4x1x512_S4x512x512_0_1_2
              (broadcastInDim S4x1x512 ![0, 2] bcast_S4x512_S4x1x512_0_2 (mean2 sum)) (ix3 g d e)))
      + _ = _
  rw [h1, h2, h3, mean2_apply, mean2_apply]

/-- The matrix handed to the apply pass at (g, e, d). -/
theorem kBt_apply (sum : FVec Ideal S4x1x512 .f32) (gram : FVec Ideal S4x512x512 .f32) (g : Fin 4) (e d : Fin 512) :
    kBt sum gram (ix3 g e d)
      = Ideal.div (kB sum gram (ix3 g d e)) (Ideal.sqrt (kNrm sum gram (ix3 g (0 : Fin 1) (0 : Fin 1)))) := by
  unfold kBt
  show Ideal.div (transpose S4x512x512 [0, 2, 1] (kB sum gram) transposes_S4x512x512_S4x512x512_0_2_1 (ix3 g e d))
    (broadcastInDim S4x512x512 ![0, 1, 2] bcast_S4x1x1_S4x512x512_0_1_2 (Host.sqrt (kNrm sum gram)) (ix3 g e d)) = _
  rw [transpose_ix3_021_apply (kB sum gram) transposes_S4x512x512_S4x512x512_0_2_1 g e d,
    broadcastInDim_apply _ bcast_S4x1x1_S4x512x512_0_1_2 _ (ix3 g e d) (ix3 g (0 : Fin 1) (0 : Fin 1)) (fun a => by
      match a with
      | ⟨0, _⟩ => rfl
      | ⟨1, _⟩ => rfl
      | ⟨2, _⟩ => rfl)]
  rfl

end Cert.KernelIdeal.KRead

end
-- ==== Proof.LibAttnRead.lean ====
/-
  Vector operations of rank-3 literal shapes read at an index built from coordinates, at the extended reals:
  a product contracting one axis with the operands' index maps named by the caller; the maximum and the sum
  along the last axis of an a × b × c array; a rank-2 array given a trailing unit axis and a trailing unit axis
  broadcast along the lanes; a leading unit axis broadcast; the two leading axes of a rank-3 array merged into
  one and split again.  Nothing here knows a program.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnRead

open Idealize.ShloMosaic Idealize.ShloMosaic.ValueIdx

variable {α : Type}

/-- A product into the zero accumulator contracting ONE axis of extent `K`, read at the output index `j`: when the
    operands' indices at `j` and contraction coordinate `k` are `L k` and `R k`, the entry is Σ_k lhs (L k) · rhs (R k). -/
theorem matmul_zero_single_apply {sl sr so : Shape} {φ₁ φ₂ : FTy} {K : ℕ} (D : DotDims sl sr so)
    (prec : Option ContractPrecision) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The maximum along the last axis of an `a × b × c` array, from the word `0xFF800000`, is at `(p, q)` the fold of
    `max` over the entries `(p, q, ·)`. -/
theorem laneMax3_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec FTy.f32.bits) = FKind.maximumf.neutral .f32 hφ) (p : Fin a) (q : Fin b) :
    multiReduction .maximumf [2] ⟨2, ![a, b]⟩ src 0xFF800000#32 h hφ hacc (ix2 p q)
      = (Finset.univ : Finset (Fin c)).fold max (Ideal.ofBits .f32 0xFF800000#32) (fun k => src (ix3 p q k)) := by
  refine (Ideal.multiReduction_maximumf_single src 0xFF800000#32 h hφ hacc (ix2 p q)).trans ?_
  show (Finset.univ : Finset (Fin c)).fold max (Ideal.ofBits .f32 0xFF800000#32) (fun k => src (h.lift (ix2 p q) k)) = _
  refine congrArg (fun f => Finset.fold max (Ideal.ofBits .f32 0xFF800000#32) f (Finset.univ : Finset (Fin c)))
    (funext fun k => congrArg src (funext fun d => Fin.ext ?_))
  match d with
  | ⟨0, _⟩ => rfl
  | ⟨1, _⟩ => rfl
  | ⟨2, _⟩ => rfl

/-- The sum along the last axis of an `a × b × c` array, from the zero word, is at `(p, q)` the finite sum of the
    entries `(p, q, ·)`. -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec FTy.f32.bits) = FKind.add.neutral .f32 hφ) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  show ∑ k : Fin c, src (h.lift (ix2 p q) k) = _
  refine Finset.sum_congr rfl fun k _ => congrArg src (funext fun d => Fin.ext ?_)
  match d with
  | ⟨0, _⟩ => rfl
  | ⟨1, _⟩ => rfl
  | ⟨2, _⟩ => rfl

/-- An `a × b` array given a trailing unit axis reads, at `(p, q, 0)`, the array at `(p, q)`. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ v h (ix3 p q z) = v (ix2 p q) :=
  shapeCast_apply v h _ _ (by
    have hz : z.val = 0 := by omega
    rw [Shape.rowMajor_val_three, Shape.rowMajor_val_two]
    show p.val * b + q.val = (p.val * b + q.val) * 1 + z.val
    omega)

/-- An `a × b × 1` array broadcast along the lanes to `a × b × c` reads, at `(p, q, k)`, the array at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `1 × a × b` array broadcast along a new leading extent `m` reads, at `(u, i, j)`, the array at `(0, i, j)`. -/
theorem broadcastTo_1ab_mab_apply {m a b : ℕ} (v : (⟨3, ![1, a, b]⟩ : Shape).Idx → α)
    (h : (⟨3, ![1, a, b]⟩ : Shape).Broadcasts ⟨3, ![m, a, b]⟩) (u : Fin m) (i : Fin a) (j : Fin b) :
    broadcastTo ⟨3, ![m, a, b]⟩ v h (ix3 u i j) = v (ix3 (0 : Fin 1) i j) := by
  refine broadcastTo_apply v h (ix3 u i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- An `n × c` array, `n = a · b`, viewed as `a × b × c` reads, at `(p, q, r)`, the array at row `p · b + q`. -/
theorem shapeCast_split_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) : shapeCast ⟨3, ![a, b, c]⟩ x h (ix3 p q r) = x (ix2 pq r) :=
  shapeCast_apply x h _ _ (by
    rw [Shape.rowMajor_val_three, Shape.rowMajor_val_two]
    show pq.val * c + r.val = (p.val * b + q.val) * c + r.val
    rw [hpq])

/-- An `a × b × c` array viewed as `n × c`, `n = a · b`, reads, at row `p · b + q`, the array at `(p, q, r)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) : shapeCast ⟨2, ![n, c]⟩ x h (ix2 pq r) = x (ix3 p q r) :=
  shapeCast_apply x h _ _ (by
    rw [Shape.rowMajor_val_three, Shape.rowMajor_val_two]
    show (p.val * b + q.val) * c + r.val = pq.val * c + r.val
    rw [hpq])

end Cert.AttnRead

end
-- ==== Proof.Stats.lean ====
/-
  The statistics pass of the group whitening, read index by index over the extended reals.

  The pass runs over a 4 × 4 grid: point 4g + j looks at samples 4096 j … 4096 j + 4095 of group g (a
  1 × 4096 × 512 block of the 4 × 16384 × 512 sample array) and carries two accumulators from one point to the next,
  a 1 × 1 × 512 row and a 1 × 512 × 512 square.  At the first block of a group (j = 0) both are set to zero; at every
  block the row gains the block's column sums, Σ_r x(r, d), and the square gains the block's second moments,
  Σ_r x(r, d) · x(r, e) (a product contracting the row axis of both factors; the change of format of the factors
  is the identity on the extended reals).  After the last block of a group (j = 3) both are written to the group's
  block of the two result arrays.

  Read in order: what each of the two cases of the body leaves in the accumulators, as the stored values of the
  blocks read; those values at an index; the sum over 16384 samples taken in four blocks of 4096 (addition on the
  extended reals is a commutative monoid, so no finiteness is needed); the accumulators after point 4g + j, by
  induction on j, as the sums over the first 4096 (j + 1) samples; and the two arrays after the pass: every entry
  lies in the block its group's last point writes, so the arrays hold the whole column sums and the whole
  uncentred second moments of every group, for any contents of the sample array at the pass's entry.
-/
import proofs.«101521_j38826504356590_2_alg».proof.Proof.Gen.KernelIdeal.Frame
import proofs.«101521_j38826504356590_2_alg».proof.Proof.Spec
import proofs.«101521_j38826504356590_2_alg».proof.Proof.LibAttnRead
import Idealize.ShloMosaic.Lib.Pipeline.Value
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic Idealize.ShloMosaic.ValueIdx

theorem hz3 : (![0, 0, 0] : Fin 3 → Nat) = fun _ => 0 := funext fun a => by fin_cases a <;> rfl

/-! ## What each case of the body leaves in the two accumulators -/

section Pieces
variable {F : FTy → Type} [FloatOps F]

set_option maxHeartbeats 400000 in
theorem out_B_1 (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x0 : Vec F S1x4096x512 .f32) (xo1 : Vec F S1x1x512 .f32) (xo2 : Vec F S1x512x512 .f32) :
    out0_B_1 c i a2 h2 a3 h3 a4 h4 hc x0 xo1 xo2 = k0_pay4 x0 xo1 := by
  unfold out0_B_1
  rw [View.read_writes_eq_canon _ _ _ (cover0_B_1 c i a2 h2 a3 h3 a4 h4 hc x0 xo1 xo2)]
  unfold kernelRun0_B
  dsimp only
  rw [View.canon_unit_zero hz3]
  simp only [View.readAt_eq_ld, h2.read_unread, h3.read_unread, View.ld_unit_zero (S := S1x4096x512) hz3,
    View.ld_unit_zero (S := S1x1x512) hz3]

set_option maxHeartbeats 400000 in
theorem out_B_2 (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x0 : Vec F S1x4096x512 .f32) (xo1 : Vec F S1x1x512 .f32) (xo2 : Vec F S1x512x512 .f32) :
    out0_B_2 c i a2 h2 a3 h3 a4 h4 hc x0 xo1 xo2 = k0_pay5 x0 xo2 := by
  unfold out0_B_2
  rw [View.read_writes_eq_canon _ _ _ (cover0_B_2 c i a2 h2 a3 h3 a4 h4 hc x0 xo1 xo2)]
  unfold kernelRun0_B
  dsimp only
  rw [View.canon_unit_zero hz3]
  simp only [View.readAt_eq_ld, h2.read_unread, h4.read_unread, View.ld_unit_zero (S := S1x4096x512) hz3,
    View.ld_unit_zero (S := S1x512x512) hz3]

set_option maxHeartbeats 400000 in
theorem out_A_1 (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x0 : Vec F S1x4096x512 .f32) :
    out0_A_1 c i a2 h2 a3 h3 a4 h4 hc x0 = k0_pay4 x0 k0_pay1 := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1x512) hz3, View.readCov_unit_zero (S := S1x1x512) _ hz3]
  simp only [View.readAt_eq_ld, h2.read_unread, View.ld_unit_zero (S := S1x4096x512) hz3]

set_option maxHeartbeats 400000 in
theorem out_A_2 (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x0 : Vec F S1x4096x512 .f32) :
    out0_A_2 c i a2 h2 a3 h3 a4 h4 hc x0 = k0_pay5 x0 k0_pay2 := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x512x512) hz3, View.readCov_unit_zero (S := S1x512x512) _ hz3]
  simp only [View.readAt_eq_ld, h2.read_unread, View.ld_unit_zero (S := S1x4096x512) hz3]

end Pieces

/-! ## The body's arithmetic read at an index, over the extended reals -/

section Reads
variable {α : Type}

/-- A 1 × 512 array given a leading unit axis reads, at (0, 0, d), the array at (0, d). -/
theorem cast_1x512_1x1x512 (v : S1x512.Idx → α) (h : S1x512.ShapeCasts S1x1x512) (d : Fin 512) :
    shapeCast S1x1x512 v h (ix3 (0 : Fin 1) (0 : Fin 1) d) = v (ix2 (0 : Fin 1) d) :=
  shapeCast_apply v h _ _ (by
    rw [Shape.rowMajor_val_two, Shape.rowMajor_val_three]
    show 0 * 512 + d.val = (0 * 1 + 0) * 512 + d.val
    omega)

/-- A 1 × 1 × 512 array without its leading unit axis reads, at (0, d), the array at (0, 0, d). -/
theorem cast_1x1x512_1x512 (v : S1x1x512.Idx → α) (h : S1x1x512.ShapeCasts S1x512) (d : Fin 512) :
    shapeCast S1x512 v h (ix2 (0 : Fin 1) d) = v (ix3 (0 : Fin 1) (0 : Fin 1) d) :=
  shapeCast_apply v h _ _ (by
    rw [Shape.rowMajor_val_two, Shape.rowMajor_val_three]
    show (0 * 1 + 0) * 512 + d.val = 0 * 512 + d.val
    omega)

/-- A vector of length 512 viewed as a 1 × 512 row reads, at (0, d), the vector at d. -/
theorem cast_512_1x512 (v : S512.Idx → α) (h : S512.ShapeCasts S1x512) (d : Fin 512) :
    shapeCast S1x512 v h (ix2 (0 : Fin 1) d) = v (ix1 d) :=
  shapeCast_apply v h _ _ (by
    rw [Shape.rowMajor_val_two, Shape.rowMajor_val_one]
    show d.val = 0 * 512 + d.val
    omega)

/-- A 1 × 4096 × 512 block without its leading unit axis reads, at (r, d), the block at (0, r, d). -/
theorem cast_1x4096x512_4096x512 (v : S1x4096x512.Idx → α) (h : S1x4096x512.ShapeCasts S4096x512) (r : Fin 4096) (d : Fin 512) :
    shapeCast S4096x512 v h (ix2 r d) = v (ix3 (0 : Fin 1) r d) :=
  shapeCast_apply v h _ _ (by
    rw [Shape.rowMajor_val_two, Shape.rowMajor_val_three]
    show (0 * 4096 + r.val) * 512 + d.val = r.val * 512 + d.val
    omega)

/-- A 1 × 512 × 512 block without its leading unit axis reads, at (d, e), the block at (0, d, e). -/
theorem cast_1x512x512_512x512 (v : S1x512x512.Idx → α) (h : S1x512x512.ShapeCasts S512x512) (d e : Fin 512) :
    shapeCast S512x512 v h (ix2 d e) = v (ix3 (0 : Fin 1) d e) :=
  shapeCast_apply v h _ _ (by
    rw [Shape.rowMajor_val_two, Shape.rowMajor_val_three]
    show (0 * 512 + d.val) * 512 + e.val = d.val * 512 + e.val
    omega)

/-- A 512 × 512 array given a leading unit axis reads, at (0, d, e), the array at (d, e). -/
theorem cast_512x512_1x512x512 (v : S512x512.Idx → α) (h : S512x512.ShapeCasts S1x512x512) (d e : Fin 512) :
    shapeCast S1x512x512 v h (ix3 (0 : Fin 1) d e) = v (ix2 d e) :=
  shapeCast_apply v h _ _ (by
    rw [Shape.rowMajor_val_two, Shape.rowMajor_val_three]
    show d.val * 512 + e.val = (0 * 512 + d.val) * 512 + e.val
    omega)

/-- The sum along the rows of a 4096 × 512 array, from the zero word, is at d the finite sum of the entries (·, d). -/
theorem rowSum_apply (src : FVec Ideal S4096x512 .f32) (h : S4096x512.Reduces [0] S512) (hφ : FKind.Formats .f32)
    (hacc : (0x00000000#32 : BitVec FTy.f32.bits) = FKind.add.neutral .f32 hφ) (d : Fin 512) :
    multiReduction .add [0] S512 src 0x00000000#32 h hφ hacc (ix1 d) = ∑ k : Fin 4096, src (ix2 k d) := by
  refine (Ideal.multiReduction_add_single src 0x00000000#32 h hφ hacc (ix1 d)).trans ?_
  show ∑ k : Fin 4096, src (h.lift (ix1 d) k) = _
  refine Finset.sum_congr rfl fun k _ => congrArg src (funext fun a => Fin.ext ?_)
  match a with
  | ⟨0, _⟩ => rfl
  | ⟨1, _⟩ => rfl

end Reads

/-! ## The Gram product's dimension numbers -/

section Dims

/-- The product contracts one axis … -/
theorem gram_rank : dot_S4096x512_S4096x512_S512x512_0_0_1_1_n_n.contr.rank = 1 := rfl
/-- … of extent 4096. -/
theorem gram_size : dot_S4096x512_S4096x512_S512x512_0_0_1_1_n_n.contr.size ⟨0, by rw [gram_rank]; exact Nat.one_pos⟩ = 4096 := rfl

/-- At output entry (d, e) and contraction coordinate k the left operand is read at (k, d) … -/
theorem gram_lhs (d e : Fin 512) (k : Fin 4096) :
    dot_S4096x512_S4096x512_S512x512_0_0_1_1_n_n.lhsIdx (ix2 d e)
      ((contrEquiv1 dot_S4096x512_S4096x512_S512x512_0_0_1_1_n_n 4096 gram_rank gram_size).symm k) = ix2 k d := by
  funext a
  apply Fin.ext
  match a with
  | ⟨0, _⟩ =>
    exact (dot_S4096x512_S4096x512_S512x512_0_0_1_1_n_n.lhsIdx_val_of_single (cl := 0) rfl _ _).trans
      (contrEquiv1_symm_val dot_S4096x512_S4096x512_S512x512_0_0_1_1_n_n 4096 gram_rank gram_size k)
  | ⟨1, _⟩ => rfl

/-- … and the right operand at (k, e). -/
theorem gram_rhs (d e : Fin 512) (k : Fin 4096) :
    dot_S4096x512_S4096x512_S512x512_0_0_1_1_n_n.rhsIdx (ix2 d e)
      ((contrEquiv1 dot_S4096x512_S4096x512_S512x512_0_0_1_1_n_n 4096 gram_rank gram_size).symm k) = ix2 k e := by
  funext a
  apply Fin.ext
  match a with
  | ⟨0, _⟩ =>
    exact (dot_S4096x512_S4096x512_S512x512_0_0_1_1_n_n.rhsIdx_val_of_single (cr := 0) rfl _ _).trans
      (contrEquiv1_symm_val dot_S4096x512_S4096x512_S512x512_0_0_1_1_n_n 4096 gram_rank gram_size k)
  | ⟨1, _⟩ => rfl

end Dims

/-! ## The stored values read at an index -/

section Payloads

/-- The row of zeros the first block of a group starts from. -/
theorem zeroRow_apply (d : Fin 512) : k0_pay1 (F := Ideal) (ix3 (0 : Fin 1) (0 : Fin 1) d) = 0 := by
  unfold k0_pay1
  refine (cast_1x512_1x1x512 _ _ d).trans ?_
  exact Ideal.ofBits_zero_f32

/-- The square of zeros the first block of a group starts from. -/
theorem zeroSquare_apply (d e : Fin 512) : k0_pay2 (F := Ideal) (ix3 (0 : Fin 1) d e) = 0 := by
  unfold k0_pay2
  refine (cast_512x512_1x512x512 _ _ d e).trans ?_
  exact Ideal.ofBits_zero_f32

/-- The running column sums after a block: what was there plus the block's column sums. -/
theorem sumStep_apply (x : Vec Ideal S1x4096x512 .f32) (acc : Vec Ideal S1x1x512 .f32) (d : Fin 512) :
    k0_pay4 x acc (ix3 (0 : Fin 1) (0 : Fin 1) d)
      = acc (ix3 (0 : Fin 1) (0 : Fin 1) d) + ∑ r : Fin 4096, x (ix3 (0 : Fin 1) r d) := by
  unfold k0_pay4 k0_pay3
  refine (cast_1x512_1x1x512 _ _ d).trans ?_
  refine (addf_apply _ _ _).trans ?_
  refine congrArg₂ (· + ·) (cast_1x1x512_1x512 acc _ d) ?_
  refine (cast_512_1x512 _ _ d).trans ?_
  refine (rowSum_apply _ _ _ _ d).trans ?_
  exact Finset.sum_congr rfl fun r _ => cast_1x4096x512_4096x512 x _ r d

/-- The running second moments after a block: what was there plus the block's products summed over its rows. -/
theorem gramStep_apply (x : Vec Ideal S1x4096x512 .f32) (acc : Vec Ideal S1x512x512 .f32) (d e : Fin 512) :
    k0_pay5 x acc (ix3 (0 : Fin 1) d e)
      = acc (ix3 (0 : Fin 1) d e) + ∑ r : Fin 4096, x (ix3 (0 : Fin 1) r d) * x (ix3 (0 : Fin 1) r e) := by
  unfold k0_pay5 k0_pay3
  refine (cast_512x512_1x512x512 _ _ d e).trans ?_
  refine (addf_apply _ _ _).trans ?_
  refine congrArg₂ (· + ·) (cast_1x512x512_512x512 acc _ d e) ?_
  refine (Cert.AttnRead.matmul_zero_single_apply dot_S4096x512_S4096x512_S512x512_0_0_1_1_n_n none gram_rank gram_size _ _
    (ix2 d e) (fun k => ix2 k d) (fun k => ix2 k e) (gram_lhs d e) (gram_rhs d e)).trans ?_
  exact Finset.sum_congr rfl fun r _ =>
    congrArg₂ (· * ·) (cast_1x4096x512_4096x512 x _ r d) (cast_1x4096x512_4096x512 x _ r e)

end Payloads

/-! ## A sum over 16384 samples taken in four blocks of 4096 -/

section Blocks

/-- A function of the samples continued by zero past the last one. -/
def ext (f : Fin 16384 → EReal) (n : ℕ) : EReal := if h : n < 16384 then f ⟨n, h⟩ else 0

/-- The sum of the first `k` samples. -/
def upto (f : Fin 16384 → EReal) (k : ℕ) : EReal := ∑ n ∈ Finset.range k, ext f n

theorem ext_of_lt (f : Fin 16384 → EReal) (n : ℕ) (h : n < 16384) : ext f n = f ⟨n, h⟩ := dif_pos h

/-- The first block: the empty sum plus the block's own sum. -/
theorem upto_first (f : Fin 16384 → EReal) (B : Fin 4096 → EReal) (hB : ∀ r : Fin 4096, B r = ext f (4096 * 0 + r.val)) :
    upto f (4096 * (0 + 1)) = 0 + ∑ r : Fin 4096, B r := by
  refine Eq.trans ?_ (zero_add _).symm
  unfold upto
  rw [show 4096 * (0 + 1) = 4096 from rfl, ← Fin.sum_univ_eq_sum_range (fun n => ext f n) 4096]
  exact Finset.sum_congr rfl fun r _ => by rw [hB r]; congr 1; omega

/-- One more block: the sum so far plus the block's own sum. -/
theorem upto_step (f : Fin 16384 → EReal) (j : ℕ) (B : Fin 4096 → EReal)
    (hB : ∀ r : Fin 4096, B r = ext f (4096 * (j + 1) + r.val)) :
    upto f (4096 * (j + 1 + 1)) = upto f (4096 * (j + 1)) + ∑ r : Fin 4096, B r := by
  unfold upto
  rw [show 4096 * (j + 1 + 1) = 4096 * (j + 1) + 4096 from by omega, Finset.sum_range_add,
    ← Fin.sum_univ_eq_sum_range (fun x => ext f (4096 * (j + 1) + x)) 4096]
  exact congrArg _ (Finset.sum_congr rfl fun r _ => (hB r).symm)

/-- All four blocks: the whole sum. -/
theorem upto_all (f : Fin 16384 → EReal) : upto f (4096 * (3 + 1)) = ∑ n : Fin 16384, f n := by
  unfold upto
  rw [show 4096 * (3 + 1) = 16384 from rfl, ← Fin.sum_univ_eq_sum_range (fun n => ext f n) 16384]
  exact Finset.sum_congr rfl fun n _ => ext_of_lt f n.val n.isLt

end Blocks

/-! ## The statistics pass at a grid point -/

section Point
variable (V : (c : Dev nD) → (b : Ref sig .tc) → Buf (Elt Ideal) ((c : Thread nD τ).loc b))

/-- The printed index maps, decided over the grid: point t reads sample block t mod 4 of group t div 4 and writes
    the sums' block t div 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The sample array as the pass finds it: group × sample × channel. -/
abbrev Zs (c : Dev nD) : S4x16384x512.Idx → EReal := V c main_v0

/-- The input block at point t, at (0, r, d), is the sample array at group t div 4, sample 4096 (t mod 4) + r. -/
theorem block_apply (c : Dev nD) (t : Fin cfg0.N) (g : Fin 4) (n : Fin 16384) (r : Fin 4096) (d : Fin 512)
    (hg : g.val = t.val / 4) (hn : n.val = 4096 * (t.val % 4) + r.val) :
    (iblk0 V c 0 t : Vec Ideal S1x4096x512 .f32) (ix3 (0 : Fin 1) r d)
      = Zs V c (ix3 g n d) := by
  obtain ⟨i0, i1, i2, -⟩ := idx_facts t
  unfold iblk0
  rw [View.read_apply]
  show V c main_v0 _ = V c main_v0 _
  congr 1
  funext a
  apply Fin.ext
  match a with
  | ⟨0, _⟩ => show win0_0.index t (0 : Fin 3) * 1 + 1 * 0 = g.val; omega
  | ⟨1, _⟩ => show win0_0.index t (1 : Fin 3) * 4096 + 1 * r.val = n.val; omega
  | ⟨2, _⟩ => show win0_0.index t (2 : Fin 3) * 512 + 1 * d.val = d.val; omega

end Point

/-! ## The accumulators after each point -/

section Invariant
variable (V : (c : Dev nD) → (b : Ref sig .tc) → Buf (Elt Ideal) ((c : Thread nD τ).loc b))

/-- At a group's first block the column sums are zero plus the block's column sums. -/
theorem firstSum_apply (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x0 : Vec Ideal S1x4096x512 .f32) (d : Fin 512) :
    out0_A_1 c i a2 h2 a3 h3 a4 h4 hc x0 (ix3 (0 : Fin 1) (0 : Fin 1) d) = 0 + ∑ r : Fin 4096, x0 (ix3 (0 : Fin 1) r d) := by
  rw [out_A_1]
  refine (sumStep_apply x0 _ d).trans ?_
  rw [zeroRow_apply]

/-- At a group's first block the second moments are zero plus the block's products summed. -/
theorem firstGram_apply (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : cond0_0 i) (x0 : Vec Ideal S1x4096x512 .f32) (d e : Fin 512) :
    out0_A_2 c i a2 h2 a3 h3 a4 h4 hc x0 (ix3 (0 : Fin 1) d e)
      = 0 + ∑ r : Fin 4096, x0 (ix3 (0 : Fin 1) r d) * x0 (ix3 (0 : Fin 1) r e) := by
  rw [out_A_2]
  refine (gramStep_apply x0 _ d e).trans ?_
  rw [zeroSquare_apply]

/-- At a later block the column sums are the carried ones plus the block's column sums. -/
theorem nextSum_apply (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x0 : Vec Ideal S1x4096x512 .f32) (xo1 : Vec Ideal S1x1x512 .f32) (xo2 : Vec Ideal S1x512x512 .f32)
    (d : Fin 512) :
    out0_B_1 c i a2 h2 a3 h3 a4 h4 hc x0 xo1 xo2 (ix3 (0 : Fin 1) (0 : Fin 1) d)
      = xo1 (ix3 (0 : Fin 1) (0 : Fin 1) d) + ∑ r : Fin 4096, x0 (ix3 (0 : Fin 1) r d) := by
  rw [out_B_1]
  exact sumStep_apply x0 xo1 d

/-- At a later block the second moments are the carried ones plus the block's products summed. -/
theorem nextGram_apply (c : Dev nD) (i : grid0.Coords) (a2 : Memref sig .tc .vmem S1x4096x512 .f32) (h2 : a2.IsWhole)
    (a3 : Memref sig .tc .vmem S1x1x512 .f32) (h3 : a3.IsWhole) (a4 : Memref sig .tc .vmem S1x512x512 .f32) (h4 : a4.IsWhole)
    (hc : ¬cond0_0 i) (x0 : Vec Ideal S1x4096x512 .f32) (xo1 : Vec Ideal S1x1x512 .f32) (xo2 : Vec Ideal S1x512x512 .f32)
    (d e : Fin 512) :
    out0_B_2 c i a2 h2 a3 h3 a4 h4 hc x0 xo1 xo2 (ix3 (0 : Fin 1) d e)
      = xo2 (ix3 (0 : Fin 1) d e) + ∑ r : Fin 4096, x0 (ix3 (0 : Fin 1) r d) * x0 (ix3 (0 : Fin 1) r e) := by
  rw [out_B_2]
  exact gramStep_apply x0 xo2 d e

/-- Channel d of group g, sample by sample. -/
abbrev colF (c : Dev nD) (g : Fin 4) (d : Fin 512) : Fin 16384 → EReal :=
  fun n => Zs V c (ix3 g n d)

/-- The product of channels d and e of group g, sample by sample. -/
abbrev prodF (c : Dev nD) (g : Fin 4) (d e : Fin 512) : Fin 16384 → EReal :=
  fun n => Zs V c (ix3 g n d) * Zs V c (ix3 g n e)

/-- The input block at point 4g + j is samples 4096 j … 4096 j + 4095 of group g. -/
theorem block_ext (c : Dev nD) (g : Fin 4) (j : ℕ) (hj : j < 4) (h : 4 * g.val + j < cfg0.N) (r : Fin 4096) (d : Fin 512) :
    (iblk0 V c 0 ⟨4 * g.val + j, h⟩ : Vec Ideal S1x4096x512 .f32) (ix3 (0 : Fin 1) r d)
      = ext (colF V c g d) (4096 * j + r.val) := by
  have hr := r.isLt
  rw [ext_of_lt _ _ (by omega)]
  exact block_apply V c ⟨4 * g.val + j, h⟩ g ⟨4096 * j + r.val, by omega⟩ r d
    (by show g.val = (4 * g.val + j) / 4; omega) (by show 4096 * j + r.val = 4096 * ((4 * g.val + j) % 4) + r.val; omega)

set_option maxHeartbeats 400000 in
/-- After point 4g + j both accumulators hold the sums over the first 4096 (j + 1) samples of group g. -/
theorem accs_eq (c : Dev nD) (g : Fin 4) : ∀ (j : ℕ) (hj : j < 4) (h : 4 * g.val + j < cfg0.N),
    (∀ d : Fin 512, (outsAt0 V c (4 * g.val + j) h).1 (ix3 (0 : Fin 1) (0 : Fin 1) d)
        = upto (colF V c g d) (4096 * (j + 1)))
    ∧ (∀ d e : Fin 512, (outsAt0 V c (4 * g.val + j) h).2 (ix3 (0 : Fin 1) d e)
        = upto (prodF V c g d e) (4096 * (j + 1)))
  | 0, hj, h => by
    have hm : (⟨4 * g.val + 0, h⟩ : Fin cfg0.N).val % 4 = 0 := by show (4 * g.val + 0) % 4 = 0; omega
    have hA := outsAt0_A V c ⟨4 * g.val + 0, h⟩ hm
    refine ⟨fun d => ?_, fun d e => ?_⟩
    · refine (congrFun (congrArg Prod.fst hA) _).trans ?_
      dsimp only
      refine (firstSum_apply c _ _ _ _ _ _ _ _ _ d).trans ?_
      exact (upto_first (colF V c g d) _ fun r => block_ext V c g 0 hj h r d).symm
    · refine (congrFun (congrArg Prod.snd hA) _).trans ?_
      dsimp only
      refine (firstGram_apply c _ _ _ _ _ _ _ _ _ d e).trans ?_
      refine (upto_first (prodF V c g d e) _ fun r => ?_).symm
      have hr := r.isLt
      rw [ext_of_lt _ _ (by omega), block_ext V c g 0 hj h r d, block_ext V c g 0 hj h r e,
        ext_of_lt _ _ (by omega), ext_of_lt _ _ (by omega)]
  | j + 1, hj, h => by
    have hm : ¬(⟨4 * g.val + (j + 1), h⟩ : Fin cfg0.N).val % 4 = 0 := by
      show ¬(4 * g.val + (j + 1)) % 4 = 0; omega
    have hB := outsAt0_B V c ⟨4 * g.val + (j + 1), h⟩ hm
    obtain ⟨ih1, ih2⟩ := accs_eq c g j (by omega) (Nat.lt_of_succ_lt h)
    refine ⟨fun d => ?_, fun d e => ?_⟩
    · refine (congrFun (congrArg Prod.fst hB) _).trans ?_
      dsimp only
      refine (nextSum_apply c _ _ _ _ _ _ _ _ _ _ _ d).trans ?_
      refine Eq.trans ?_ (upto_step (colF V c g d) j _ fun r => block_ext V c g (j + 1) hj h r d).symm
      exact congrArg (· + _) (ih1 d)
    · refine (congrFun (congrArg Prod.snd hB) _).trans ?_
      dsimp only
      refine (nextGram_apply c _ _ _ _ _ _ _ _ _ _ _ d e).trans ?_
      refine (congrArg (· + _) (ih2 d e)).trans ?_
      refine (upto_step (prodF V c g d e) j _ fun r => ?_).symm
      · have hr := r.isLt
        rw [ext_of_lt _ _ (by omega), block_ext V c g (j + 1) hj h r d, block_ext V c g (j + 1) hj h r e,
          ext_of_lt _ _ (by omega), ext_of_lt _ _ (by omega)]

end Invariant

/-! ## The two arrays after the pass -/

section Final
variable (V : (c : Dev nD) → (b : Ref sig .tc) → Buf (Elt Ideal) ((c : Thread nD τ).loc b))

/-- The column sums of every group, as one array. -/
def sumArr (c : Dev nD) : S4x1x512.Idx → EReal := fun i => Cert.Whiten.colSum (Zs V c) (i 0) (i 2)

/-- The uncentred second moments of every group, as one array. -/
def gramArr (c : Dev nD) : S4x512x512.Idx → EReal := fun i => Cert.Whiten.gram (Zs V c) (i 0) (i 1) (i 2)

theorem outsAt_congr (c : Dev nD) (n n' : ℕ) (h : n < cfg0.N) (h' : n' < cfg0.N) (e : n = n') :
    outsAt0 V c n h = outsAt0 V c n' h' := by subst e; rfl

set_option maxHeartbeats 400000 in
/-- A point that writes the column sums back is a group's last, and writes that group's block of the sums. -/
theorem flushedSum_eq (c : Dev nD) (t : Fin cfg0.N) (hf : (cfg0.win 1).flush t = true) :
    (dat0 V c).flushed 1 t = ((cfg0.win 1).blk t).view.read (Elt Ideal) (sumArr V c) := by
  have h3 : t.val % 4 = 3 := (flush0_1 t).mp hf
  have hN : t.val < 16 := lt_of_lt_of_eq t.isLt N_0
  obtain ⟨-, -, -, j0, j1, j2, -⟩ := idx_facts t
  have hg : t.val / 4 < 4 := by omega
  have h' : 4 * (t.val / 4) + 3 < cfg0.N := lt_of_lt_of_eq (by omega : 4 * (t.val / 4) + 3 < 16) N_0.symm
  show (cfg0.win 1).cut (grid0.coords t) ((dat0 V c).after 1 t) = _
  rw [after0_1, outsAt_congr V c t.val (4 * (t.val / 4) + 3) t.isLt h' (by omega)]
  funext y
  obtain ⟨y0, y1, y2, rfl⟩ : ∃ (y0 : Fin 1) (y1 : Fin 1) (y2 : Fin 512), y = ix3 y0 y1 y2 :=
    ⟨y 0, y 1, y 2, eq_ix3 (n0 := 1) (n1 := 1) (n2 := 512) y⟩
  rw [View.read_apply, cast_eq]
  have e1 : (cfg0.win 1).xinj (grid0.coords t) (ix3 y0 y1 y2) = ix3 (0 : Fin 1) (0 : Fin 1) y2 := by
    funext a
    apply Fin.ext
    match a with
    | ⟨0, _⟩ => show y0.val = 0; omega
    | ⟨1, _⟩ => show y1.val = 0; omega
    | ⟨2, _⟩ => rfl
  have e2 : ((cfg0.win 1).blk t).view.emb (ix3 y0 y1 y2) = ix3 (⟨t.val / 4, hg⟩ : Fin 4) (0 : Fin 1) y2 := by
    funext a
    apply Fin.ext
    match a with
    | ⟨0, _⟩ => show win0_1.index t (0 : Fin 3) * 1 + 1 * y0.val = t.val / 4; omega
    | ⟨1, _⟩ => show win0_1.index t (1 : Fin 3) * 1 + 1 * y1.val = 0; omega
    | ⟨2, _⟩ => show win0_1.index t (2 : Fin 3) * 512 + 1 * y2.val = y2.val; omega
  show (outsAt0 V c (4 * (t.val / 4) + 3) h').1 ((cfg0.win 1).xinj (grid0.coords t) (ix3 y0 y1 y2)) = _
  rw [e1, e2]
  refine ((accs_eq V c ⟨t.val / 4, hg⟩ 3 (by omega) h').1 y2).trans ?_
  exact upto_all _

set_option maxHeartbeats 400000 in
/-- A point that writes the second moments back is a group's last, and writes that group's block of them. -/
theorem flushedGram_eq (c : Dev nD) (t : Fin cfg0.N) (hf : (cfg0.win 2).flush t = true) :
    (dat0 V c).flushed 2 t = ((cfg0.win 2).blk t).view.read (Elt Ideal) (gramArr V c) := by
  have h3 : t.val % 4 = 3 := (flush0_2 t).mp hf
  have hN : t.val < 16 := lt_of_lt_of_eq t.isLt N_0
  obtain ⟨-, -, -, -, -, -, j0, j1, j2⟩ := idx_facts t
  have hg : t.val / 4 < 4 := by omega
  have h' : 4 * (t.val / 4) + 3 < cfg0.N := lt_of_lt_of_eq (by omega : 4 * (t.val / 4) + 3 < 16) N_0.symm
  show (cfg0.win 2).cut (grid0.coords t) ((dat0 V c).after 2 t) = _
  rw [after0_2, outsAt_congr V c t.val (4 * (t.val / 4) + 3) t.isLt h' (by omega)]
  funext y
  obtain ⟨y0, y1, y2, rfl⟩ : ∃ (y0 : Fin 1) (y1 : Fin 512) (y2 : Fin 512), y = ix3 y0 y1 y2 :=
    ⟨y 0, y 1, y 2, eq_ix3 (n0 := 1) (n1 := 512) (n2 := 512) y⟩
  rw [View.read_apply, cast_eq]
  have e1 : (cfg0.win 2).xinj (grid0.coords t) (ix3 y0 y1 y2) = ix3 (0 : Fin 1) y1 y2 := by
    funext a
    apply Fin.ext
    match a with
    | ⟨0, _⟩ => show y0.val = 0; omega
    | ⟨1, _⟩ => rfl
    | ⟨2, _⟩ => rfl
  have e2 : ((cfg0.win 2).blk t).view.emb (ix3 y0 y1 y2) = ix3 (⟨t.val / 4, hg⟩ : Fin 4) y1 y2 := by
    funext a
    apply Fin.ext
    match a with
    | ⟨0, _⟩ => show win0_2.index t (0 : Fin 3) * 1 + 1 * y0.val = t.val / 4; omega
    | ⟨1, _⟩ => show win0_2.index t (1 : Fin 3) * 512 + 1 * y1.val = y1.val; omega
    | ⟨2, _⟩ => show win0_2.index t (2 : Fin 3) * 512 + 1 * y2.val = y2.val; omega
  show (outsAt0 V c (4 * (t.val / 4) + 3) h').2 ((cfg0.win 2).xinj (grid0.coords t) (ix3 y0 y1 y2)) = _
  rw [e1, e2]
  refine ((accs_eq V c ⟨t.val / 4, hg⟩ 3 (by omega) h').2 y1 y2).trans ?_
  exact upto_all _

/-- Every entry of the sums' array lies in the block its group's last point writes back. -/
theorem coverSum (i : S4x1x512.Idx) :
    ∃ t : Fin cfg0.N, (cfg0.win 1).flush t = true ∧ i ∈ ((cfg0.win 1).blk t).view.set := by
  have hi0 : (i 0).val < 4 := (i 0).isLt
  have hi1 : (i 1).val < 1 := (i 1).isLt
  have hi2 : (i 2).val < 512 := (i 2).isLt
  have ht : 4 * (i 0).val + 3 < cfg0.N := lt_of_lt_of_eq (by omega : 4 * (i 0).val + 3 < 16) N_0.symm
  obtain ⟨-, -, -, j0, j1, j2, -⟩ := idx_facts ⟨4 * (i 0).val + 3, ht⟩
  have hv : (⟨4 * (i 0).val + 3, ht⟩ : Fin cfg0.N).val = 4 * (i 0).val + 3 := rfl
  refine ⟨⟨4 * (i 0).val + 3, ht⟩, (flush0_1 _).mpr (by rw [hv]; omega), ?_⟩
  show i ∈ ((View.whole main_v1_0).slice (win0_1.rect ⟨4 * (i 0).val + 3, ht⟩)).set
  rw [View.set_slice_whole, Rect.mem_set_unit]
  intro a
  match a with
  | ⟨0, _⟩ =>
    show win0_1.index ⟨4 * (i 0).val + 3, ht⟩ (0 : Fin 3) * 1 ≤ (i 0).val
      ∧ (i 0).val < win0_1.index ⟨4 * (i 0).val + 3, ht⟩ (0 : Fin 3) * 1 + 1
    rw [j0, hv]; omega
  | ⟨1, _⟩ =>
    show win0_1.index ⟨4 * (i 0).val + 3, ht⟩ (1 : Fin 3) * 1 ≤ (i 1).val
      ∧ (i 1).val < win0_1.index ⟨4 * (i 0).val + 3, ht⟩ (1 : Fin 3) * 1 + 1
    rw [j1]; omega
  | ⟨2, _⟩ =>
    show win0_1.index ⟨4 * (i 0).val + 3, ht⟩ (2 : Fin 3) * 512 ≤ (i 2).val
      ∧ (i 2).val < win0_1.index ⟨4 * (i 0).val + 3, ht⟩ (2 : Fin 3) * 512 + 512
    rw [j2]; omega

/-- Every entry of the second moments' array lies in the block its group's last point writes back. -/
theorem coverGram (i : S4x512x512.Idx) :
    ∃ t : Fin cfg0.N, (cfg0.win 2).flush t = true ∧ i ∈ ((cfg0.win 2).blk t).view.set := by
  have hi0 : (i 0).val < 4 := (i 0).isLt
  have hi1 : (i 1).val < 512 := (i 1).isLt
  have hi2 : (i 2).val < 512 := (i 2).isLt
  have ht : 4 * (i 0).val + 3 < cfg0.N := lt_of_lt_of_eq (by omega : 4 * (i 0).val + 3 < 16) N_0.symm
  obtain ⟨-, -, -, -, -, -, j0, j1, j2⟩ := idx_facts ⟨4 * (i 0).val + 3, ht⟩
  have hv : (⟨4 * (i 0).val + 3, ht⟩ : Fin cfg0.N).val = 4 * (i 0).val + 3 := rfl
  refine ⟨⟨4 * (i 0).val + 3, ht⟩, (flush0_2 _).mpr (by rw [hv]; omega), ?_⟩
  show i ∈ ((View.whole main_v1_1).slice (win0_2.rect ⟨4 * (i 0).val + 3, ht⟩)).set
  rw [View.set_slice_whole, Rect.mem_set_unit]
  intro a
  match a with
  | ⟨0, _⟩ =>
    show win0_2.index ⟨4 * (i 0).val + 3, ht⟩ (0 : Fin 3) * 1 ≤ (i 0).val
      ∧ (i 0).val < win0_2.index ⟨4 * (i 0).val + 3, ht⟩ (0 : Fin 3) * 1 + 1
    rw [j0, hv]; omega
  | ⟨1, _⟩ =>
    show win0_2.index ⟨4 * (i 0).val + 3, ht⟩ (1 : Fin 3) * 512 ≤ (i 1).val
      ∧ (i 1).val < win0_2.index ⟨4 * (i 0).val + 3, ht⟩ (1 : Fin 3) * 512 + 512
    rw [j1]; omega
  | ⟨2, _⟩ =>
    show win0_2.index ⟨4 * (i 0).val + 3, ht⟩ (2 : Fin 3) * 512 ≤ (i 2).val
      ∧ (i 2).val < win0_2.index ⟨4 * (i 0).val + 3, ht⟩ (2 : Fin 3) * 512 + 512
    rw [j2]; omega

/-- After the pass the first output array holds every group's column sums. -/
theorem sum_arr (c : Dev nD) (g : Fin 4) (d : Fin 512) :
    (dat0 (F := Ideal) V c).arrAt 1 cfg0.N (ix3 g (0 : Fin 1) d) = Cert.Whiten.colSum (V c main_v0) g d :=
  congrFun ((dat0 V c).arrAt_eq_of_cover 1 (sumArr V c) (flushedSum_eq V c) coverSum) (ix3 g (0 : Fin 1) d)

/-- After the pass the second output array holds every group's uncentred second moments. -/
theorem gram_arr (c : Dev nD) (g : Fin 4) (d e : Fin 512) :
    (dat0 (F := Ideal) V c).arrAt 2 cfg0.N (ix3 g d e) = Cert.Whiten.gram (V c main_v0) g d e :=
  congrFun ((dat0 V c).arrAt_eq_of_cover 2 (gramArr V c) (flushedGram_eq V c) coverGram) (ix3 g d e)

end Final

end Cert.KernelIdeal.Stats
end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.Apply.lean ====
/-
  The apply pass of the group whitening, read index by index at the extended reals.  The pass walks a 4 × 8 grid:
  point t = 8·g + j handles group g and the block of 2048 consecutive samples j.  At that point it takes the
  2048 × 512 block of samples, subtracts the group's one row of means from every row, and multiplies the result by
  the group's 512 × 512 matrix (contracting the channels of the centred samples with the matrix's rows); the
  product is written back as rows 2048·j … 2048·j + 2047 of group g.  The blocks tile the 4 × 16384 × 512 result,
  so after the last point the result at (g, n, d) is Σ_e (z(g, n, e) − mean(g, 0, e)) · M(g, e, d), whatever the
  three arrays hold when the pass starts.
-/
import proofs.«101521_j38826504356590_2_alg».proof.Proof.Gen.KernelIdeal.Frame
import proofs.«101521_j38826504356590_2_alg».proof.Proof.Spec
import proofs.«101521_j38826504356590_2_alg».proof.Proof.LibRowsProduct
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Apply

open Cert.KernelIdeal Cert.KernelIdeal.Gen Idealize.ShloMosaic Idealize.ShloMosaic.ValueIdx
open Idealize.ShloMosaic.TcCoe
open Idealize.ShloMosaic.Pipeline (Dat)

/-! ## The body's arithmetic at an index -/

set_option maxHeartbeats 400000 in
/-- One point's product, entry (p, d): the centred row p of the sample block times column d of the matrix. -/
theorem pay_apply (x0 : Vec Ideal S1x2048x512 .f32) (x1 : Vec Ideal S1x1x512 .f32) (x2 : Vec Ideal S1x512x512 .bf16)
    (u : Fin 1) (p : Fin 2048) (d : Fin 512) :
    k1_pay1 (F := Ideal) x0 x1 x2 (ix3 u p d)
      = ∑ e : Fin 512, (x0 (ix3 (0 : Fin 1) p e) - x1 (ix3 (0 : Fin 1) (0 : Fin 1) e)) * x2 (ix3 (0 : Fin 1) e d) := by
  unfold k1_pay1
  refine (shapeCast_ab_1ab_apply _ _ u p d).trans ?_
  refine (Cert.RowsProduct.matmul_zero_rows_apply (a := 2048) (K := 512) (b := 512)
    dot_S2048x512_S512x512_S2048x512_1_0_0_1_n_n none rfl rfl
    (fun j q => by simp [DotDims.lhsIdx, dot_S2048x512_S512x512_S2048x512_1_0_0_1_n_n]; rfl)
    (fun j q => DotDims.lhsIdx_val_of_single _ (cl := (1 : Fin 2)) rfl j q)
    (fun j q => DotDims.rhsIdx_val_of_single _ (cr := (0 : Fin 2)) rfl j q)
    (fun j q => by simp [DotDims.rhsIdx, dot_S2048x512_S512x512_S2048x512_1_0_0_1_n_n]; rfl)
    _ _ p d).trans ?_
  refine Finset.sum_congr rfl fun k _ => ?_
  show (shapeCast S2048x512 x0 shapeCasts_S1x2048x512_S2048x512 (ix2 p k)
      - broadcastTo S2048x512 (shapeCast S1x512 x1 shapeCasts_S1x1x512_S1x512) broadcasts_S1x512_S2048x512 (ix2 p k))
      * shapeCast S512x512 x2 shapeCasts_S1x512x512_S512x512 (ix2 k d) = _
  rw [shapeCast_1ab_ab_apply x0, broadcastTo_1b_ab_apply, shapeCast_1ab_ab_apply x1, shapeCast_1ab_ab_apply x2]

/-! ## The grid: which block of each array a point reads and writes -/

variable (V : (c : Dev nD) → (b : Ref sig .tc) → Buf (Elt Ideal) ((c : Thread nD τ).loc b))

theorem hz : (![0, 0, 0] : Fin 3 → Nat) = fun _ => 0 := funext fun a => by fin_cases a <;> rfl

/-- Point t handles group t / 8 and sample block t % 8: the samples' and the result's block index is
    (t / 8, t % 8, 0), the mean's and the matrix's is (t / 8, 0, 0).  Decided over the 32 points. -/
theorem idx_facts : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

set_option maxHeartbeats 400000 in
/-- The sample block at point t, entry x, is the sample array at group t / 8, row 2048 · (t % 8) + x₁, channel x₂. -/
theorem samples_blk_apply (c : Dev nD) (t : Fin cfg1.N) (x : S1x2048x512.Idx) (k : S4x16384x512.Idx)
    (h0 : (k 0).val = t.val / 8) (h1 : (k 1).val = t.val % 8 * 2048 + (x 1).val) (h2 : (k 2).val = (x 2).val) :
    (iblk1 V c 0 t : Vec Ideal S1x2048x512 .f32) x = (V c main_v0 : S4x16384x512.Idx → EReal) k := by
  obtain ⟨e0, e1, e2, -⟩ := idx_facts t
  have hx0 : (x 0).val < 1 := (x 0).isLt
  unfold iblk1
  rw [View.read_apply]
  show V c main_v0 _ = V c main_v0 _
  congr 1
  funext a
  apply Fin.ext
  match a with
  | ⟨0, _⟩ => show win1_0.index t (0 : Fin 3) * 1 + 1 * (x 0).val = (k 0).val; rw [e0, h0]; omega
  | ⟨1, _⟩ => show win1_0.index t (1 : Fin 3) * 2048 + 1 * (x 1).val = (k 1).val; rw [e1, h1]; omega
  | ⟨2, _⟩ => show win1_0.index t (2 : Fin 3) * 512 + 1 * (x 2).val = (k 2).val; rw [e2, h2]; omega

set_option maxHeartbeats 400000 in
/-- The mean block at point t, entry x, is the mean array at group t / 8, its one row, channel x₂. -/
theorem mean_blk_apply (c : Dev nD) (t : Fin cfg1.N) (x : S1x1x512.Idx) (k : S4x1x512.Idx)
    (h0 : (k 0).val = t.val / 8) (h2 : (k 2).val = (x 2).val) :
    (iblk1 V c 1 t : Vec Ideal S1x1x512 .f32) x = (V c main_v3 : S4x1x512.Idx → EReal) k := by
  obtain ⟨-, -, -, e0, e1, e2, -⟩ := idx_facts t
  have hx0 : (x 0).val < 1 := (x 0).isLt
  have hx1 : (x 1).val < 1 := (x 1).isLt
  have hk1 : (k 1).val < 1 := (k 1).isLt
  unfold iblk1
  rw [View.read_apply]
  show V c main_v3 _ = V c main_v3 _
  congr 1
  funext a
  apply Fin.ext
  match a with
  | ⟨0, _⟩ => show win1_1.index t (0 : Fin 3) * 1 + 1 * (x 0).val = (k 0).val; rw [e0, h0]; omega
  | ⟨1, _⟩ => show win1_1.index t (1 : Fin 3) * 1 + 1 * (x 1).val = (k 1).val; rw [e1]; omega
  | ⟨2, _⟩ => show win1_1.index t (2 : Fin 3) * 512 + 1 * (x 2).val = (k 2).val; rw [e2, h2]; omega

set_option maxHeartbeats 400000 in
/-- The matrix block at point t, entry x, is the matrix array at group t / 8, row x₁, column x₂. -/
theorem matrix_blk_apply (c : Dev nD) (t : Fin cfg1.N) (x : S1x512x512.Idx) (k : S4x512x512.Idx)
    (h0 : (k 0).val = t.val / 8) (h1 : (k 1).val = (x 1).val) (h2 : (k 2).val = (x 2).val) :
    (iblk1 V c 2 t : Vec Ideal S1x512x512 .bf16) x = (V c main_v75 : S4x512x512.Idx → EReal) k := by
  obtain ⟨-, -, -, -, -, -, e0, e1, e2, -⟩ := idx_facts t
  have hx0 : (x 0).val < 1 := (x 0).isLt
  unfold iblk1
  rw [View.read_apply]
  show V c main_v75 _ = V c main_v75 _
  congr 1
  funext a
  apply Fin.ext
  match a with
  | ⟨0, _⟩ => show win1_2.index t (0 : Fin 3) * 1 + 1 * (x 0).val = (k 0).val; rw [e0, h0]; omega
  | ⟨1, _⟩ => show win1_2.index t (1 : Fin 3) * 512 + 1 * (x 1).val = (k 1).val; rw [e1, h1]; omega
  | ⟨2, _⟩ => show win1_2.index t (2 : Fin 3) * 512 + 1 * (x 2).val = (k 2).val; rw [e2, h2]; omega

/-! ## What a point writes back, and the result after the last point -/

/-- Σ_e (Z (g, n, e) − Mn (g, 0, e)) · B (g, e, d): row n of group g centred by the group's row of means, times
    column d of the group's matrix. -/
def resAt (Z : S4x16384x512.Idx → EReal) (Mn : S4x1x512.Idx → EReal) (B : S4x512x512.Idx → EReal)
    (g : Fin 4) (n : Fin 16384) (d : Fin 512) : EReal :=
  ∑ e : Fin 512, (Z (ix3 g n e) - Mn (ix3 g (0 : Fin 1) e)) * B (ix3 g e d)

/-- The result as one function of its index, from the three arrays as the pass finds them. -/
def res (c : Dev nD) : S4x16384x512.Idx → EReal :=
  fun i => resAt (V c main_v0) (V c main_v3) (V c main_v75) (i 0) (i 1) (i 2)

set_option maxHeartbeats 400000 in
/-- Entry (u, p, d) of the product formed at point t is `res` at any index I of group t / 8, row 2048 · (t % 8) + p,
    channel d: each block entry the product reads is the array's entry in that group, at that row or channel. -/
theorem point_entry (c : Dev nD) (t : Fin cfg1.N) (u : Fin 1) (p : Fin 2048) (d : Fin 512) (I : S4x16384x512.Idx)
    (h0 : (I 0).val = t.val / 8) (h1 : (I 1).val = t.val % 8 * 2048 + p.val) (h2 : (I 2).val = d.val) :
    k1_pay1 (F := Ideal) (iblk1 V c 0 t) (iblk1 V c 1 t) (iblk1 V c 2 t) (ix3 u p d) = res V c I := by
  refine (pay_apply (iblk1 V c 0 t) (iblk1 V c 1 t) (iblk1 V c 2 t) u p d).trans ?_
  unfold res resAt
  refine Finset.sum_congr rfl fun e _ => ?_
  rw [samples_blk_apply V c t (ix3 (0 : Fin 1) p e) (ix3 (I 0) (I 1) e) h0 h1 rfl,
    mean_blk_apply V c t (ix3 (0 : Fin 1) (0 : Fin 1) e) (ix3 (I 0) (0 : Fin 1) e) h0 rfl,
    matrix_blk_apply V c t (ix3 (0 : Fin 1) e d) (ix3 (I 0) e (I 2)) h0 rfl h2]

set_option maxHeartbeats 400000 in
/-- Where the result's block at point t puts its entry (u, p, d): group t / 8, row 2048 · (t % 8) + p, channel d. -/
theorem result_emb (t : Fin cfg1.N) (u : Fin 1) (p : Fin 2048) (d : Fin 512) :
    ((((cfg1.win 3).blk t).view.emb (ix3 u p d) : S4x16384x512.Idx) 0).val = t.val / 8
    ∧ ((((cfg1.win 3).blk t).view.emb (ix3 u p d) : S4x16384x512.Idx) 1).val = t.val % 8 * 2048 + p.val
    ∧ ((((cfg1.win 3).blk t).view.emb (ix3 u p d) : S4x16384x512.Idx) 2).val = d.val := by
  obtain ⟨-, -, -, -, -, -, -, -, -, e0, e1, e2⟩ := idx_facts t
  have hu : u.val < 1 := u.isLt
  refine ⟨?_, ?_, ?_⟩
  · show win1_3.index t (0 : Fin 3) * 1 + 1 * u.val = _; rw [e0]; omega
  · show win1_3.index t (1 : Fin 3) * 2048 + 1 * p.val = _; rw [e1]; omega
  · show win1_3.index t (2 : Fin 3) * 512 + 1 * d.val = _; rw [e2]; omega

set_option maxHeartbeats 800000 in
/-- WHAT POINT t WRITES BACK is its block of `res`. -/
theorem flushed_eq (c : Dev nD) (t : Fin cfg1.N) :
    (dat1 V c).flushed 3 t = ((cfg1.win 3).blk t).view.read (Elt Ideal) (res V c) := by
  show (cfg1.win 3).cut (grid1.coords t) ((dat1 V c).after 3 t) = _
  rw [after1_3]
  unfold out1_3
  rw [View.canon_unit_zero hz]
  simp only [View.ld_unit_zero (S := S1x2048x512) hz, View.ld_unit_zero (S := S1x1x512) hz,
    View.ld_unit_zero (S := S1x512x512) hz]
  funext y
  obtain ⟨u, p, d, rfl⟩ : ∃ (u : Fin 1) (p : Fin 2048) (d : Fin 512), y = ix3 u p d := ⟨y 0, y 1, y 2, eq_ix3 y⟩
  rw [View.read_apply]
  obtain ⟨h0, h1, h2⟩ := result_emb t u p d
  exact point_entry V c t u p d _ h0 h1 h2

set_option maxHeartbeats 400000 in
/-- An index of the result is in point t's block iff each coordinate is in the block's range on its axis. -/
theorem mem_blk (t : Fin cfg1.N) (i : S4x16384x512.Idx) :
    i ∈ ((cfg1.win 3).blk t).view.set ↔ ∀ a : Fin 3, win1_3.index t a * S1x2048x512.size a ≤ (i a).val
      ∧ (i a).val < win1_3.index t a * S1x2048x512.size a + S1x2048x512.size a := by
  show i ∈ ((View.whole main_v76).slice (win1_3.rect t)).set ↔ _
  rw [View.set_slice_whole, Rect.mem_set_unit]
  exact Iff.rfl

set_option maxHeartbeats 400000 in
/-- The blocks tile the result: entry (g, n, d) is in the block of point 8 · g + n / 2048, and every point writes
    its block back. -/
theorem cover (i : S4x16384x512.Idx) :
    ∃ t : Fin cfg1.N, (cfg1.win 3).flush t = true ∧ i ∈ ((cfg1.win 3).blk t).view.set := by
  have hi0 : (i 0).val < 4 := (i 0).isLt
  have hi1 : (i 1).val < 16384 := (i 1).isLt
  have hi2 : (i 2).val < 512 := (i 2).isLt
  obtain ⟨t, ht⟩ : ∃ t : Fin cfg1.N, t.val = 8 * (i 0).val + (i 1).val / 2048 :=
    ⟨⟨8 * (i 0).val + (i 1).val / 2048, Nat.lt_of_lt_of_eq (by omega : 8 * (i 0).val + (i 1).val / 2048 < 32) N_1.symm⟩, rfl⟩
  refine ⟨t, flush1_3 t, ?_⟩
  rw [mem_blk]
  obtain ⟨-, -, -, -, -, -, -, -, -, e0, e1, e2⟩ := idx_facts t
  intro a
  match a with
  | ⟨0, _⟩ =>
    show win1_3.index t (0 : Fin 3) * 1 ≤ (i 0).val ∧ (i 0).val < win1_3.index t (0 : Fin 3) * 1 + 1
    rw [e0, ht]; omega
  | ⟨1, _⟩ =>
    show win1_3.index t (1 : Fin 3) * 2048 ≤ (i 1).val ∧ (i 1).val < win1_3.index t (1 : Fin 3) * 2048 + 2048
    rw [e1, ht]; omega
  | ⟨2, _⟩ =>
    show win1_3.index t (2 : Fin 3) * 512 ≤ (i 2).val ∧ (i 2).val < win1_3.index t (2 : Fin 3) * 512 + 512
    rw [e2]; omega

/-- THE RESULT after the last point is `res` of the three arrays as the pass finds them. -/
theorem final (c : Dev nD) : (dat1 V c).arrAt 3 cfg1.N = res V c :=
  (dat1 V c).arrAt_eq_of_cover 3 (res V c) (fun t _ => flushed_eq V c t) cover

/-- The result at (g, n, d), with the three arrays named: whenever the samples, the means and the matrices the pass
    finds are Z, Mn and B, the entry is Σ_e (Z (g, n, e) − Mn (g, 0, e)) · B (g, e, d). -/
theorem out_arr_of (c : Dev nD) (Z : S4x16384x512.Idx → EReal) (Mn : S4x1x512.Idx → EReal) (B : S4x512x512.Idx → EReal)
    (hZ : V c main_v0 = Z) (hMn : V c main_v3 = Mn) (hB : V c main_v75 = B) (g : Fin 4) (n : Fin 16384) (d : Fin 512) :
    (dat1 (F := Ideal) V c).arrAt 3 cfg1.N (ix3 g n d)
      = ∑ e : Fin 512, (Z (ix3 g n e) - Mn (ix3 g (0 : Fin 1) e)) * B (ix3 g e d) := by
  subst hZ hMn hB
  exact congrFun (final V c) (ix3 g n d)

/-- The result at (g, n, d) in the arrays' own words (the difference and the product are the extended reals'). -/
theorem out_arr (c : Dev nD) (g : Fin 4) (n : Fin 16384) (d : Fin 512) :
    (dat1 (F := Ideal) V c).arrAt 3 cfg1.N (ix3 g n d)
      = ∑ e : Fin 512, HMul.hMul (α := EReal) (β := EReal)
          (HSub.hSub (α := EReal) (β := EReal) (V c main_v0 (ix3 g n e)) (V c main_v3 (ix3 g (0 : Fin 1) e)))
          (V c main_v75 (ix3 g e d)) :=
  out_arr_of V c _ _ _ rfl rfl rfl g n d

end Cert.KernelIdeal.Apply

end
-- ==== Proof.Algebra.lean ====
/-
  The algebra that joins the two programs.  Over finite (real) samples: the uncentred second moment minus
  N · mean · meanᵀ is the centred second moment; a diagonal entry of the centred second moment is a nonnegative
  real.  Over the extended reals: dividing every term of a sum by a positive real is dividing the sum.
-/
import proofs.«101521_j38826504356590_2_alg».proof.Proof.Spec

noncomputable section

open scoped BigOperators

namespace Cert.Whiten

open Idealize.ShloMosaic Idealize.ShloMosaic.ValueIdx

/-- The coercion of the reals into the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals, with a = (Σ f)/c and b = (Σ g)/c for c the number of terms:
    Σ f·g − c·(a·b) = Σ (f − a)(g − b). -/
theorem real_cov {N : ℕ} (c : ℝ) (hc : c = (N : ℝ)) (hc0 : c ≠ 0) (f g : Fin N → ℝ) :
    ∑ i, f i * g i - c * ((∑ i, f i) / c * ((∑ i, g i) / c))
      = ∑ i, (f i - (∑ j, f j) / c) * (g i - (∑ j, g j) / c) := by
  have hf : ∑ i, f i = c * ((∑ i, f i) / c) := by field_simp
  have hg : ∑ i, g i = c * ((∑ i, g i) / c) := by field_simp
  generalize (∑ i, f i) / c = a at hf ⊢
  generalize (∑ i, g i) / c = b at hg ⊢
  have expand : ∑ i, (f i - a) * (g i - b)
      = ∑ i, f i * g i - b * ∑ i, f i - a * ∑ i, g i + c * (a * b) := by
    simp only [sub_mul, mul_sub, Finset.sum_sub_distrib, ← Finset.sum_mul, ← Finset.mul_sum, Finset.sum_const,
      Finset.card_univ, Fintype.card_fin, nsmul_eq_mul, hc]
    ring
  rw [expand, hf, hg]
  ring

/-- The sample count's word is the real 16384. -/
theorem nWord_eq : nWord = ((16384 : ℝ) : EReal) := by
  simp [nWord, Ideal.ofBits, Ideal.ieee, -EReal.coe_mul]; norm_num

/-- Dividing each term of a finite sum by a positive real is dividing the sum, on all extended reals
    (multiplication by a nonnegative real distributes over every sum). -/
theorem sum_div_pos {ι : Type*} (s : Finset ι) (y : ι → EReal) (r : ℝ) (hr : 0 < r) :
    ∑ e ∈ s, Ideal.div (y e) (r : EReal) = Ideal.div (∑ e ∈ s, y e) (r : EReal) := by
  classical
  simp only [Ideal.div_coe (ne_of_gt hr)]
  induction s using Finset.induction_on with
  | empty => simp
  | insert a s ha ih =>
    rw [Finset.sum_insert ha, Finset.sum_insert ha, ih]
    exact (EReal.right_distrib_of_nonneg_of_ne_top (by exact_mod_cast (one_div_pos.mpr hr).le) (EReal.coe_ne_top _) _ _).symm

/-- Σ x·(b / r) = (Σ b·x) / r for a positive real r. -/
theorem scale_sum {ι : Type*} (s : Finset ι) (x b : ι → EReal) (r : ℝ) (hr : 0 < r) :
    ∑ e ∈ s, x e * Ideal.div (b e) (r : EReal) = Ideal.div (∑ e ∈ s, b e * x e) (r : EReal) := by
  rw [← sum_div_pos s _ r hr]
  refine Finset.sum_congr rfl fun e _ => ?_
  rw [Ideal.div_coe (ne_of_gt hr), Ideal.div_coe (ne_of_gt hr), ← mul_assoc, mul_comm (x e) (b e)]

/-! ## Finite samples: every quantity is a real -/

section Samples

variable (Z : SZ.Idx → EReal) (z : SZ.Idx → ℝ) (hz : ∀ i, Z i = (z i : EReal))
include hz

theorem colSum_coe (g : Fin 4) (d : Fin 512) :
    colSum Z g d = ((∑ n : Fin 16384, z (ix3 g n d) : ℝ) : EReal) := by
  unfold colSum; simp only [hz]; exact coe_sum _ _

theorem mean_coe (g : Fin 4) (d : Fin 512) :
    mean Z g d = (((∑ n : Fin 16384, z (ix3 g n d)) / 16384 : ℝ) : EReal) := by
  unfold mean
  rw [colSum_coe Z z hz, nWord_eq, Ideal.div_coe (by norm_num), ← EReal.coe_mul]
  exact congrArg _ (by ring)

theorem cen_coe (g : Fin 4) (n : Fin 16384) (d : Fin 512) :
    cen Z g n d = ((z (ix3 g n d) - (∑ k : Fin 16384, z (ix3 g k d)) / 16384 : ℝ) : EReal) := by
  unfold cen; rw [mean_coe Z z hz, hz, ← EReal.coe_sub]

theorem gram_coe (g : Fin 4) (d e : Fin 512) :
    gram Z g d e = ((∑ n : Fin 16384, z (ix3 g n d) * z (ix3 g n e) : ℝ) : EReal) := by
  unfold gram; simp only [hz, ← EReal.coe_mul]; exact coe_sum _ _

theorem cov_coe (g : Fin 4) (d e : Fin 512) :
    cov Z g d e = ((∑ n : Fin 16384, (z (ix3 g n d) - (∑ k : Fin 16384, z (ix3 g k d)) / 16384)
        * (z (ix3 g n e) - (∑ k : Fin 16384, z (ix3 g k e)) / 16384) : ℝ) : EReal) := by
  unfold cov; simp only [cen_coe Z z hz, ← EReal.coe_mul]; exact coe_sum _ _

/-- The uncentred second moment minus N · mean · meanᵀ is the centred second moment. -/
theorem cov_identity (g : Fin 4) (d e : Fin 512) :
    gram Z g d e - nWord * (mean Z g d * mean Z g e) = cov Z g d e := by
  rw [gram_coe Z z hz, nWord_eq, mean_coe Z z hz, mean_coe Z z hz, cov_coe Z z hz, ← EReal.coe_mul, ← EReal.coe_mul,
    ← EReal.coe_sub]
  exact congrArg _ (real_cov (16384 : ℝ) (by norm_num) (by norm_num) _ _)

/-- The centred second moment is a real; on the diagonal a nonnegative one. -/
theorem cov_real (g : Fin 4) (d e : Fin 512) : ∃ r : ℝ, cov Z g d e = (r : EReal) := ⟨_, cov_coe Z z hz g d e⟩

theorem cov_diag_nonneg (g : Fin 4) (d : Fin 512) : ∃ r : ℝ, 0 ≤ r ∧ cov Z g d d = (r : EReal) :=
  ⟨_, Finset.sum_nonneg fun _ _ => mul_self_nonneg _, cov_coe Z z hz g d d⟩

end Samples

end Cert.Whiten

end
-- ==== Proof.Norm.lean ====
/-
  The shared chain read where the proof needs it: eps · identity at an entry; an identity entry is 0 or 1 and the
  corner entry is 1; and the Frobenius norm of a real matrix with a nonzero entry is a positive real.
-/
import Idealize.ShloMosaic.Lib.Pipeline.Value
import proofs.«101521_j38826504356590_2_alg».proof.Proof.Chain
import proofs.«101521_j38826504356590_2_alg».proof.Proof.Algebra

noncomputable section

open scoped BigOperators

namespace Cert.Whiten

open Idealize.ShloMosaic Idealize.ShloMosaic.ValueIdx

/-- The regularisation word 1e-5 is a positive real. -/
theorem eps_pos : ∃ ε : ℝ, 0 < ε ∧ Ideal.ofBits .f32 0x3727C5AC#32 = (ε : EReal) := by
  refine ⟨_, ?_, by simp [Ideal.ofBits, Ideal.ieee, -EReal.coe_mul]; rfl⟩
  positivity

/-- eps · identity at (g, d, e) is eps times the identity mask at (0, d, e). -/
theorem epsEye_apply (hbe : S0.BroadcastsInDim SE1 (![] : Fin 0 → Fin SE1.rank))
    (hb14 : SE1.BroadcastsInDim SB (![0, 1, 2] : Fin 3 → Fin SB.rank)) (I1 : FVec Ideal SE1 .f32)
    (g : Fin 4) (d e : Fin 512) :
    epsEye hbe hb14 I1 (ix3 g d e) = Ideal.ofBits .f32 0x3727C5AC#32 * I1 (ix3 (0 : Fin 1) d e) := by
  unfold epsEye
  rw [broadcastInDim_apply _ hb14 _ (ix3 g d e) (ix3 (0 : Fin 1) d e) (fun a => by
    match a with
    | ⟨0, _⟩ => rfl
    | ⟨1, _⟩ => rfl
    | ⟨2, _⟩ => rfl)]
  rfl

/-- An identity-mask entry is the real 0 or 1 read off one bit. -/
theorem eye1_bit (hb0 : S0.BroadcastsInDim SE (![] : Fin 0 → Fin SE.rank))
    (hb1 : SE.BroadcastsInDim SE1 (![1, 2] : Fin 2 → Fin SE1.rank)) (d e : Fin 512) :
    ∃ b : BitVec 1, eye1 hb0 hb1 (ix3 (0 : Fin 1) d e) = ((b.toNat : ℝ) : EReal) := by
  unfold eye1
  rw [broadcastInDim_apply _ hb1 _ (ix3 (0 : Fin 1) d e) (ix2 d e) (fun a => by
    match a with
    | ⟨0, _⟩ => rfl
    | ⟨1, _⟩ => rfl)]
  exact ⟨_, rfl⟩

/-- So it is a nonnegative real. -/
theorem eye1_nonneg (hb0 : S0.BroadcastsInDim SE (![] : Fin 0 → Fin SE.rank))
    (hb1 : SE.BroadcastsInDim SE1 (![1, 2] : Fin 2 → Fin SE1.rank)) (d e : Fin 512) :
    ∃ r : ℝ, 0 ≤ r ∧ eye1 hb0 hb1 (ix3 (0 : Fin 1) d e) = (r : EReal) := by
  obtain ⟨b, hb⟩ := eye1_bit hb0 hb1 d e
  exact ⟨_, Nat.cast_nonneg _, hb⟩

/-- The corner entry of the identity mask is 1. -/
theorem eye1_corner (hb0 : S0.BroadcastsInDim SE (![] : Fin 0 → Fin SE.rank))
    (hb1 : SE.BroadcastsInDim SE1 (![1, 2] : Fin 2 → Fin SE1.rank)) :
    eye1 hb0 hb1 (ix3 (0 : Fin 1) (0 : Fin 512) (0 : Fin 512)) = ((1 : ℝ) : EReal) := by
  unfold eye1
  rw [broadcastInDim_apply _ hb1 _ (ix3 (0 : Fin 1) (0 : Fin 512) (0 : Fin 512)) (ix2 (0 : Fin 512) (0 : Fin 512)) (fun a => by
    match a with
    | ⟨0, _⟩ => rfl
    | ⟨1, _⟩ => rfl)]
  show (((cmpi .eq (addi (iotaInDim SE 32 0) (broadcastInDim SE ![] hb0 (constantI S0 32 0#32))) (iotaInDim SE 32 1)
    (ix2 (0 : Fin 512) (0 : Fin 512))).toNat : ℝ) : EReal) = _
  have hbit : cmpi .eq (addi (iotaInDim SE 32 0) (broadcastInDim SE ![] hb0 (constantI S0 32 0#32))) (iotaInDim SE 32 1)
      (ix2 (0 : Fin 512) (0 : Fin 512)) = 1#1 := rfl
  rw [hbit]
  norm_num

/-- The Frobenius norm of each group of a real array with a nonzero corner entry is a positive real. -/
theorem nrm_pos (hred : SB.ReducesTo [1, 2] SG) (h0 : 0 < S0.numel)
    (hb : SG.BroadcastsInDim SG11 (![0] : Fin 1 → Fin SG11.rank)) (S : FVec Ideal SB .f32) (σ : SB.Idx → ℝ)
    (hσ : ∀ i, S i = (σ i : EReal)) (g : Fin 4) (hne : σ (ix3 g (0 : Fin 512) (0 : Fin 512)) ≠ 0) :
    ∃ r : ℝ, 0 < r ∧ nrmArr hred h0 hb S (ix3 g (0 : Fin 1) (0 : Fin 1)) = (r : EReal) := by
  unfold nrmArr
  show ∃ r : ℝ, 0 < r ∧ Ideal.sqrt (broadcastInDim SG11 ![0] hb
    (Host.reduceAdd (mulf S S) (constant (F := Ideal) S0 .f32 0x00000000#32) hred h0) (ix3 g (0 : Fin 1) (0 : Fin 1))) = (r : EReal)
  rw [broadcastInDim_apply _ hb _ (ix3 g (0 : Fin 1) (0 : Fin 1)) (ix1 g) (fun a => by
    match a with
    | ⟨0, _⟩ => rfl)]
  show ∃ r : ℝ, 0 < r ∧ Ideal.sqrt (Ideal.ofBits .f32 0x00000000#32
    + ∑ i ∈ Finset.univ.filter (fun i => hred.drop i = ix1 g), S i * S i) = (r : EReal)
  simp only [hσ, ← EReal.coe_mul, coe_sum, Ideal.ofBits_zero_f32, zero_add]
  have hpos : 0 < ∑ i ∈ Finset.univ.filter (fun i => hred.drop i = ix1 g), σ i * σ i := by
    refine Finset.sum_pos' (fun i _ => mul_self_nonneg _) ⟨ix3 g (0 : Fin 512) (0 : Fin 512), Finset.mem_filter.mpr ⟨Finset.mem_univ _, ?_⟩, mul_self_pos.mpr hne⟩
    funext a
    match a with
    | ⟨0, _⟩ => rfl
  rw [Ideal.sqrt_coe, if_neg (not_lt.mpr hpos.le)]
  exact ⟨_, Real.sqrt_pos.mpr hpos, rfl⟩

end Cert.Whiten

end
-- ==== Proof.Core.lean ====
/-
  The two facts that join the programs, free of either program.  (1) For finite samples, an array whose entry
  (g, d, e) is the centred second moment plus eps times an identity-mask entry is real everywhere and positive at
  each group's corner, so each group's Frobenius norm is a positive real.  (2) When the norm ν is a positive real,
  Σₑ (z − mean)ₑ · (B_{d,e} / √ν) = (Σₑ B_{d,e} · (z − mean)ₑ) / √ν: the apply pass's product with the pre-scaled,
  transposed matrix is the reference's product divided afterwards.
-/
import proofs.«101521_j38826504356590_2_alg».proof.Proof.Norm

noncomputable section

open scoped BigOperators

namespace Cert.Whiten

open Idealize.ShloMosaic Idealize.ShloMosaic.ValueIdx

/-- (1) The regularised covariance of finite samples is a real array whose corner entries are nonzero. -/
theorem S_real_corner (Z : SZ.Idx → EReal) (z : SZ.Idx → ℝ) (hz : ∀ i, Z i = (z i : EReal))
    (I1 : SE1.Idx → EReal) (hI : ∀ d e : Fin 512, ∃ r : ℝ, 0 ≤ r ∧ I1 (ix3 (0 : Fin 1) d e) = (r : EReal))
    (hI0 : I1 (ix3 (0 : Fin 1) (0 : Fin 512) (0 : Fin 512)) = ((1 : ℝ) : EReal))
    (S : SB.Idx → EReal)
    (hS : ∀ (g : Fin 4) (d e : Fin 512), S (ix3 g d e) = cov Z g d e + Ideal.ofBits .f32 0x3727C5AC#32 * I1 (ix3 (0 : Fin 1) d e)) :
    ∃ σ : SB.Idx → ℝ, (∀ i, S i = (σ i : EReal)) ∧ ∀ g : Fin 4, σ (ix3 g (0 : Fin 512) (0 : Fin 512)) ≠ 0 := by
  obtain ⟨ε, hε0, hε⟩ := eps_pos
  have hreal : ∀ i, ∃ s : ℝ, S i = (s : EReal) := fun i => by
    obtain ⟨g, d, e, rfl⟩ : ∃ (g : Fin 4) (d e : Fin 512), i = ix3 g d e := ⟨i 0, i 1, i 2, eq_ix3 i⟩
    rw [hS]
    obtain ⟨c, hc⟩ := cov_real Z z hz g d e
    obtain ⟨ι, _, hι⟩ := hI d e
    exact ⟨c + ε * ι, by rw [hc, hι, hε, ← EReal.coe_mul, ← EReal.coe_add]⟩
  choose σ hσ using hreal
  refine ⟨σ, hσ, fun g => ?_⟩
  obtain ⟨c, hc0, hc⟩ := cov_diag_nonneg Z z hz g (0 : Fin 512)
  have h1 : (σ (ix3 g (0 : Fin 512) (0 : Fin 512)) : EReal) = ((c + ε * 1 : ℝ) : EReal) := by
    rw [← hσ, hS, hc, hI0, hε, ← EReal.coe_mul, ← EReal.coe_add]
  have h2 : σ (ix3 g (0 : Fin 512) (0 : Fin 512)) = c + ε * 1 := by exact_mod_cast h1
  rw [h2]
  have : 0 < c + ε * 1 := by linarith
  exact ne_of_gt this

/-- (2) The final rescaling. -/
theorem whiten_eq (Z : SZ.Idx → EReal) (B : SB.Idx → EReal) (ν : EReal) (r : ℝ) (hr : 0 < r) (hν : ν = (r : EReal))
    (g : Fin 4) (n : Fin 16384) (d : Fin 512) :
    ∑ e : Fin 512, (Z (ix3 g n e) - mean Z g e) * Ideal.div (B (ix3 g d e)) (Ideal.sqrt ν)
      = Ideal.div (∑ e : Fin 512, B (ix3 g d e) * cen Z g n e) (Ideal.sqrt ν) := by
  subst hν
  rw [Ideal.sqrt_coe, if_neg (not_lt.mpr hr.le)]
  exact scale_sum Finset.univ (fun e => cen Z g n e) (fun e => B (ix3 g d e)) (Real.sqrt r) (Real.sqrt_pos.mpr hr)

end Cert.Whiten

end
-- ==== Proof.KBridge.lean ====
/-
  The kernel program's value, index by index, in the shared terms: the statistics pass leaves the column sums and
  the uncentred second moment of the reshaped input Z; hence the mean handed to the apply pass is mean Z, the
  regularised covariance is cov Z + eps · identity (the covariance identity, for finite samples), and the apply pass
  leaves Σₑ (Z − mean Z)(g, n, e) · B(g, d, e) / √ν at (g, n, d), B and ν the Newton–Schulz matrix and the norm of
  that covariance.
-/
import proofs.«101521_j38826504356590_2_alg».proof.Proof.KRead
import proofs.«101521_j38826504356590_2_alg».proof.Proof.Stats
import proofs.«101521_j38826504356590_2_alg».proof.Proof.Apply
import proofs.«101521_j38826504356590_2_alg».proof.Proof.Core

noncomputable section

open scoped BigOperators

namespace Cert.KernelIdeal.KBridge

open Cert.KernelIdeal Cert.KernelIdeal.Gen Cert.KernelIdeal.KHost Cert.KernelIdeal.KRead
open Idealize.ShloMosaic Idealize.ShloMosaic.ValueIdx

variable (m : (ℓ : Loc nD τ sig) → Buf (Elt Ideal) ℓ) (ρ : Dev nD → PrngReg)

/-- The samples: the input reshaped, as the statistics pass finds it. -/
abbrev Zk (c : Dev nD) : FVec Ideal S4x16384x512 .f32 := V1 m ρ c main_v0

/-- The statistics pass leaves the column sums … -/
theorem sumArr_apply (c : Dev nD) (g : Fin 4) (d : Fin 512) :
    sumArr m ρ c (ix3 g (0 : Fin 1) d) = Cert.Whiten.colSum (Zk m ρ c) g d :=
  (congrFun (W2_arr m ρ c 1) _).trans (Cert.KernelIdeal.Stats.sum_arr (V1 m ρ) c g d)

/-- … and the uncentred second moment. -/
theorem gramArr_apply (c : Dev nD) (g : Fin 4) (d e : Fin 512) :
    gramArr m ρ c (ix3 g d e) = Cert.Whiten.gram (Zk m ρ c) g d e :=
  (congrFun (W2_arr m ρ c 2) _).trans (Cert.KernelIdeal.Stats.gram_arr (V1 m ρ) c g d e)

/-- The mean handed to the apply pass is the mean of the samples. -/
theorem mean_apply (c : Dev nD) (g : Fin 4) (d : Fin 512) :
    meanArr (sumArr m ρ c) (ix3 g (0 : Fin 1) d) = Cert.Whiten.mean (Zk m ρ c) g d := by
  rw [meanArr_apply, sumArr_apply]
  rfl

/-- For finite samples the regularised covariance is the centred second moment plus eps · identity. -/
theorem kS_cov (c : Dev nD) (z : Cert.Whiten.SZ.Idx → ℝ) (hz : ∀ i, Zk m ρ c i = (z i : EReal)) (g : Fin 4) (d e : Fin 512) :
    kS (sumArr m ρ c) (gramArr m ρ c) (ix3 g d e)
      = Cert.Whiten.cov (Zk m ρ c) g d e
        + Ideal.ofBits .f32 0x3727C5AC#32 * Cert.Whiten.eye1 bcast_S_S512x512 bcast_S512x512_S1x512x512_1_2 (ix3 (0 : Fin 1) d e) := by
  rw [kS_apply, gramArr_apply, sumArr_apply, sumArr_apply, Cert.Whiten.epsEye_apply]
  generalize Zk m ρ c = Z at hz ⊢
  rw [← Cert.Whiten.cov_identity Z z hz g d e]
  rfl

/-- What the apply pass leaves at (g, n, d). -/
theorem out_apply (c : Dev nD) (g : Fin 4) (n : Fin 16384) (d : Fin 512) :
    @Eq EReal ((dat1 (F := Ideal) (V3 m ρ) c).arrAt 3 cfg1.N (ix3 g n d))
      (∑ e : Fin 512, (Zk m ρ c (ix3 g n e) - Cert.Whiten.mean (Zk m ρ c) g e)
          * Ideal.div (kB (sumArr m ρ c) (gramArr m ρ c) (ix3 g d e))
              (Ideal.sqrt (kNrm (sumArr m ρ c) (gramArr m ρ c) (ix3 g (0 : Fin 1) (0 : Fin 1))))) := by
  rw [Cert.KernelIdeal.Apply.out_arr_of (V3 m ρ) c (Zk m ρ c) (meanArr (sumArr m ρ c)) (kBt (sumArr m ρ c) (gramArr m ρ c))
    (V3_v0 m ρ c) (V3_v3 m ρ c) (V3_v75 m ρ c) g n d]
  refine Finset.sum_congr rfl fun e _ => ?_
  rw [mean_apply, kBt_apply]

end Cert.KernelIdeal.KBridge

end
-- ==== Proof.RefChain.lean ====
/-
  The reference program's result as the reshape of a 4 × 16384 × 512 array: the Newton–Schulz matrix B of the
  regularised covariance times the centred samples, divided by the square root of the norm.  The program's own
  spelling of B and of the norm are instances of the shared definitions.
-/
import proofs.«101521_j38826504356590_2_alg».proof.Proof.Gen.ReferenceIdeal.Run
import proofs.«101521_j38826504356590_2_alg».proof.Proof.Chain

noncomputable section

namespace Cert.ReferenceIdeal.RefChain

open Cert.ReferenceIdeal Cert.ReferenceIdeal.Gen Cert.ReferenceIdeal.Value Idealize.ShloMosaic Idealize.ShloMosaic.TcCoe Idealize.SL.Sem Idealize.ShloMosaic.StableHlo

variable (V0 : Valuation τ sig (Elt Ideal))

/-- The identity mask is the shared one. -/
theorem eye_eq : res_main_v14 (F := Ideal) V0 = Cert.Whiten.eye1 bcast_S_S512x512 bcast_S512x512_S1x512x512_1_2 := rfl

/-- The norm array is the shared one of the regularised covariance. -/
theorem nrm_eq : res_main_v22 (F := Ideal) V0
    = Cert.Whiten.nrmArr reducesTo_S4x512x512_S4_d1_2 h_S_ bcast_S4_S4x1x1_0 (res_main_v18 (F := Ideal) V0) := rfl

/-- The Newton–Schulz matrix of the reference. -/
def B (V0 : Valuation τ sig (Elt Ideal)) : FVec Ideal S4x512x512 .f32 :=
  Cert.Whiten.nsB dot_S4x512x512_S4x512x512_S4x512x512_2_1_1_2_0_0 bcast_S_S4x512x512 bcast_S4x1x1_S4x512x512_0_1_2
    bcast_S1x512x512_S4x512x512_0_1_2 (res_main_v14 (F := Ideal) V0) (res_main_v18 (F := Ideal) V0) (res_main_v22 (F := Ideal) V0)

/-- The centred samples and the norm array, at their array types. -/
abbrev cenArr (V0 : Valuation τ sig (Elt Ideal)) : FVec Ideal S4x16384x512 .f32 := res_main_v6 (F := Ideal) V0
abbrev nrm (V0 : Valuation τ sig (Elt Ideal)) : FVec Ideal S4x1x1 .f32 := res_main_v22 (F := Ideal) V0

/-- The result before the last reshape. -/
def out3 (V0 : Valuation τ sig (Elt Ideal)) : FVec Ideal S4x16384x512 .f32 :=
  transpose S4x16384x512 [0, 2, 1] (Host.divf (Host.dotGeneral dot_S4x512x512_S4x512x16384_S4x512x16384_2_1_1_2_0_0 none (B V0)
      (transpose S4x512x16384 [0, 2, 1] (cenArr V0) transposes_S4x16384x512_S4x512x16384_0_2_1))
      (broadcastInDim S4x512x16384 ![0, 1, 2] bcast_S4x1x1_S4x512x16384_0_1_2 (Host.sqrt (nrm V0))))
    transposes_S4x512x16384_S4x16384x512_0_2_1

set_option maxRecDepth 8192 in
/-- The reference's run with its result stated as the reshape of that array: every weakly fair execution terminates,
    the result buffer holding it and the argument unchanged. -/
theorem run3 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v72)
          = shapeCast S16384x2048 (out3 (launchContents m c)) shapeCasts_S4x16384x512_S16384x2048
      ∧ r.2.mem ((c.tc : Thread nD τ).loc main_arg0) = m ((c.tc : Thread nD τ).loc main_arg0) :=
  (θ_run defs _ _).mono (fun _ h c => ⟨(h c).1.trans (by
      unfold out3 B Cert.Whiten.nsB Cert.Whiten.nsStep res_main_v57 res_main_v49 res_main_v41 res_main_v33 res_main_v25 res_main_v24
      rfl), (h c).2⟩)
    (Cert.ReferenceIdeal.Value.run (F := Ideal) m ρ)

end Cert.ReferenceIdeal.RefChain

end
-- ==== Proof.RefRead.lean ====
/-
  The reference's intermediate arrays read at an index, on the extended reals.  With Z the input viewed as
  4 groups × 16384 samples × 512 channels: the centred samples are Z minus the group's column means; the regularised
  second moment is the centred second moment plus a small constant times the identity mask; and the last operations
  (a product with the transposed centred samples, a division by the root of the group's norm, a transpose back) are
  read for an arbitrary 4 × 512 × 512 matrix in place of the iterated one.  Each layout operation is read at the one
  operand index it reads, each sum over one axis as a finite sum over that axis's coordinates, and each product
  contracting one axis as the finite sum over the contracted coordinate.  The view of the input as groups and the
  iteration itself are never opened.
-/
import proofs.«101521_j38826504356590_2_alg».proof.Proof.Gen.ReferenceIdeal.Run
import proofs.«101521_j38826504356590_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Value Idealize.ShloMosaic Idealize.ShloMosaic.ValueIdx

variable {α : Type}

/-- A 4 × 1 × 512 array broadcast along the samples reads, at (g, n, d), the array at (g, 0, d). -/
theorem bcast_row_apply (x : S4x1x512.Idx → α) (g : Fin 4) (n : Fin 16384) (d : Fin 512) :
    broadcastInDim S4x16384x512 ![0, 1, 2] bcast_S4x1x512_S4x16384x512_0_1_2 x (ix3 g n d) = x (ix3 g (0 : Fin 1) d) := by
  refine broadcastInDim_apply _ _ x (ix3 g n d) (ix3 g (0 : Fin 1) d) fun a => ?_
  match a with
  | ⟨0, _⟩ => rfl
  | ⟨1, _⟩ => rfl
  | ⟨2, _⟩ => rfl

/-- A 4 × 512 array given a unit middle axis reads, at (g, z, d), the array at (g, d). -/
theorem bcast_mid_apply (x : S4x512.Idx → α) (g : Fin 4) (z : Fin 1) (d : Fin 512) :
    broadcastInDim S4x1x512 ![0, 2] bcast_S4x512_S4x1x512_0_2 x (ix3 g z d) = x (ix2 g d) := by
  refine broadcastInDim_apply _ _ x (ix3 g z d) (ix2 g d) fun a => ?_
  match a with
  | ⟨0, _⟩ => rfl
  | ⟨1, _⟩ => rfl

/-- The sum over the samples, from the zero word: at (g, d) the finite sum of the entries (g, ·, d). -/
theorem colSum_apply (Z : FVec Ideal S4x16384x512 .f32) (g : Fin 4) (d : Fin 512) :
    Host.reduceAdd (F := Ideal) Z (constant (F := Ideal) S_ .f32 0x00000000#32) reducesTo_S4x16384x512_S4x512_d1 h_S_ (ix2 g d)
      = ∑ n : Fin 16384, Z (ix3 g n d) := by
  rw [hostReduceAdd_apply, Ideal.hostReduceAdd_single reducesTo_S4x16384x512_S4x512_d1 (by decide)]
  rw [constant_apply, Ideal.ofBits_zero_f32, zero_add]
  refine Finset.sum_congr rfl fun k _ => congrArg Z (funext fun a => Fin.ext ?_)
  match a with
  | ⟨0, _⟩ => rfl
  | ⟨1, _⟩ => rfl
  | ⟨2, _⟩ => rfl

/-- The column means: the column sums, given a unit middle axis, over the sample count. -/
theorem mean_apply (Z : FVec Ideal S4x16384x512 .f32) (g : Fin 4) (z : Fin 1) (d : Fin 512) :
    Host.divf (F := Ideal) (broadcastInDim S4x1x512 ![0, 2] bcast_S4x512_S4x1x512_0_2 (Host.reduceAdd (F := Ideal) Z (constant (F := Ideal) S_ .f32 0x00000000#32) reducesTo_S4x16384x512_S4x512_d1 h_S_)) (broadcastInDim S4x1x512 ![] bcast_S_S4x1x512 (constant (F := Ideal) S_ .f32 0x46800000#32)) (ix3 g z d)
      = Cert.Whiten.mean Z g d := by
  rw [hostDivf_apply, bcast_mid_apply, colSum_apply, broadcastInDim_scalar_apply, constant_apply]
  rfl

/-- The host's general product contracting ONE axis of extent `K`, read at the output index `j`: when the operands'
    indices at `j` and contraction coordinate `k` are `L k` and `R k`, the entry is Σ_k lhs (L k) · rhs (R k). -/
theorem dotGeneral_single_apply {sl sr so : Shape} {φ₁ φ₂ : FTy} {K : ℕ} (D : DotDims sl sr so)
    (prec : Option ContractPrecision) (sched : HostSchedule) (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

/-! The second-moment product: batch axis 0 on both sides, the sample axis contracted, the channel axes free. -/

theorem gramL0 (i : S4x512x512.Idx) (q : dot_S4x16384x512_S4x16384x512_S4x512x512_1_1_2_2_0_0.contr.Idx) :
    (dot_S4x16384x512_S4x16384x512_S4x512x512_1_1_2_2_0_0.lhsIdx i q 0).val = (i 0).val := by
  unfold DotDims.lhsIdx
  rw [dif_pos (show (0 : Fin S4x16384x512.rank) ∈ dot_S4x16384x512_S4x16384x512_S4x512x512_1_1_2_2_0_0.lhsBatch by decide)]
  rfl

theorem gramL1 (i : S4x512x512.Idx) (q : dot_S4x16384x512_S4x16384x512_S4x512x512_1_1_2_2_0_0.contr.Idx) :
    (dot_S4x16384x512_S4x16384x512_S4x512x512_1_1_2_2_0_0.lhsIdx i q 1).val = (q ⟨0, by decide⟩).val :=
  dot_S4x16384x512_S4x16384x512_S4x512x512_1_1_2_2_0_0.lhsIdx_val_of_single rfl i q

theorem gramL2 (i : S4x512x512.Idx) (q : dot_S4x16384x512_S4x16384x512_S4x512x512_1_1_2_2_0_0.contr.Idx) :
    (dot_S4x16384x512_S4x16384x512_S4x512x512_1_1_2_2_0_0.lhsIdx i q 2).val = (i 1).val := by
  unfold DotDims.lhsIdx
  rw [dif_neg (show ¬(2 : Fin S4x16384x512.rank) ∈ dot_S4x16384x512_S4x16384x512_S4x512x512_1_1_2_2_0_0.lhsBatch by decide),
    dif_pos (show (2 : Fin S4x16384x512.rank) ∈ dot_S4x16384x512_S4x16384x512_S4x512x512_1_1_2_2_0_0.lhsNonContracting by decide)]
  rfl

theorem gramR0 (i : S4x512x512.Idx) (q : dot_S4x16384x512_S4x16384x512_S4x512x512_1_1_2_2_0_0.contr.Idx) :
    (dot_S4x16384x512_S4x16384x512_S4x512x512_1_1_2_2_0_0.rhsIdx i q 0).val = (i 0).val := by
  unfold DotDims.rhsIdx
  rw [dif_pos (show (0 : Fin S4x16384x512.rank) ∈ dot_S4x16384x512_S4x16384x512_S4x512x512_1_1_2_2_0_0.rhsBatch by decide)]
  rfl

theorem gramR1 (i : S4x512x512.Idx) (q : dot_S4x16384x512_S4x16384x512_S4x512x512_1_1_2_2_0_0.contr.Idx) :
    (dot_S4x16384x512_S4x16384x512_S4x512x512_1_1_2_2_0_0.rhsIdx i q 1).val = (q ⟨0, by decide⟩).val :=
  dot_S4x16384x512_S4x16384x512_S4x512x512_1_1_2_2_0_0.rhsIdx_val_of_single rfl i q

theorem gramR2 (i : S4x512x512.Idx) (q : dot_S4x16384x512_S4x16384x512_S4x512x512_1_1_2_2_0_0.contr.Idx) :
    (dot_S4x16384x512_S4x16384x512_S4x512x512_1_1_2_2_0_0.rhsIdx i q 2).val = (i 2).val := by
  unfold DotDims.rhsIdx
  rw [dif_neg (show ¬(2 : Fin S4x16384x512.rank) ∈ dot_S4x16384x512_S4x16384x512_S4x512x512_1_1_2_2_0_0.rhsBatch by decide),
    dif_pos (show (2 : Fin S4x16384x512.rank) ∈ dot_S4x16384x512_S4x16384x512_S4x512x512_1_1_2_2_0_0.rhsNonContracting by decide)]
  rfl

/-- The product of a 4 × 16384 × 512 array with another over the samples: at (g, d, e) the sum over the samples n of
    the entries (g, n, d) and (g, n, e). -/
theorem gram_apply (X Y : FVec Ideal S4x16384x512 .f32) (g : Fin 4) (d e : Fin 512) :
    Host.dotGeneral (F := Ideal) dot_S4x16384x512_S4x16384x512_S4x512x512_1_1_2_2_0_0 none X Y (ix3 g d e)
      = ∑ n : Fin 16384, X (ix3 g n d) * Y (ix3 g n e) := by
  refine dotGeneral_single_apply dot_S4x16384x512_S4x16384x512_S4x512x512_1_1_2_2_0_0 none .single rfl rfl X Y (ix3 g d e)
    (fun n => ix3 g n d) (fun n => ix3 g n e) (fun k => ?_) (fun k => ?_)
  · have hk := contrEquiv1_symm_val dot_S4x16384x512_S4x16384x512_S4x512x512_1_1_2_2_0_0 16384 rfl rfl k
    refine funext fun a => Fin.ext ?_
    match a with
    | ⟨0, _⟩ => exact gramL0 _ _
    | ⟨1, _⟩ => exact (gramL1 _ _).trans hk
    | ⟨2, _⟩ => exact gramL2 _ _
  · have hk := contrEquiv1_symm_val dot_S4x16384x512_S4x16384x512_S4x512x512_1_1_2_2_0_0 16384 rfl rfl k
    refine funext fun a => Fin.ext ?_
    match a with
    | ⟨0, _⟩ => exact gramR0 _ _
    | ⟨1, _⟩ => exact (gramR1 _ _).trans hk
    | ⟨2, _⟩ => exact gramR2 _ _

/-- A 1 × 512 × 512 array broadcast over the groups reads, at (g, d, e), the array at (0, d, e). -/
theorem bcast_group_apply (x : S1x512x512.Idx → α) (g : Fin 4) (d e : Fin 512) :
    broadcastInDim S4x512x512 ![0, 1, 2] bcast_S1x512x512_S4x512x512_0_1_2 x (ix3 g d e) = x (ix3 (0 : Fin 1) d e) := by
  refine broadcastInDim_apply _ _ x (ix3 g d e) (ix3 (0 : Fin 1) d e) fun a => ?_
  match a with
  | ⟨0, _⟩ => rfl
  | ⟨1, _⟩ => rfl
  | ⟨2, _⟩ => rfl

/-- A 4 × 512 × 16384 array with its last two axes exchanged reads, at (g, n, d), the array at (g, d, n). -/
theorem transpose_out_apply (X : S4x512x16384.Idx → α) (g : Fin 4) (n : Fin 16384) (d : Fin 512) :
    transpose S4x16384x512 [0, 2, 1] X transposes_S4x512x16384_S4x16384x512_0_2_1 (ix3 g n d) = X (ix3 g d n) := by
  refine transpose_apply _ X _ (ix3 g n d) (ix3 g d n) fun b => ?_
  match b with
  | ⟨0, _⟩ => rfl
  | ⟨1, _⟩ => rfl
  | ⟨2, _⟩ => rfl

/-- A 4 × 16384 × 512 array with its last two axes exchanged reads, at (g, e, n), the array at (g, n, e). -/
theorem transpose_in_apply (Y : S4x16384x512.Idx → α) (g : Fin 4) (e : Fin 512) (n : Fin 16384) :
    transpose S4x512x16384 [0, 2, 1] Y transposes_S4x16384x512_S4x512x16384_0_2_1 (ix3 g e n) = Y (ix3 g n e) := by
  refine transpose_apply _ Y _ (ix3 g e n) (ix3 g n e) fun b => ?_
  match b with
  | ⟨0, _⟩ => rfl
  | ⟨1, _⟩ => rfl
  | ⟨2, _⟩ => rfl

/-- A 4 × 1 × 1 array broadcast over channels and samples reads, at (g, d, n), the array at (g, 0, 0). -/
theorem bcast_norm_apply (x : S4x1x1.Idx → α) (g : Fin 4) (d : Fin 512) (n : Fin 16384) :
    broadcastInDim S4x512x16384 ![0, 1, 2] bcast_S4x1x1_S4x512x16384_0_1_2 x (ix3 g d n) = x (ix3 g (0 : Fin 1) (0 : Fin 1)) := by
  refine broadcastInDim_apply _ _ x (ix3 g d n) (ix3 g (0 : Fin 1) (0 : Fin 1)) fun a => ?_
  match a with
  | ⟨0, _⟩ => rfl
  | ⟨1, _⟩ => rfl
  | ⟨2, _⟩ => rfl

/-! The final product: batch axis 0 on both sides, the left operand's last axis against the right operand's middle
    axis, the left operand's middle axis and the right operand's last axis free. -/

theorem projL0 (i : S4x512x16384.Idx) (q : dot_S4x512x512_S4x512x16384_S4x512x16384_2_1_1_2_0_0.contr.Idx) :
    (dot_S4x512x512_S4x512x16384_S4x512x16384_2_1_1_2_0_0.lhsIdx i q 0).val = (i 0).val := by
  unfold DotDims.lhsIdx
  rw [dif_pos (show (0 : Fin S4x512x512.rank) ∈ dot_S4x512x512_S4x512x16384_S4x512x16384_2_1_1_2_0_0.lhsBatch by decide)]
  rfl

theorem projL1 (i : S4x512x16384.Idx) (q : dot_S4x512x512_S4x512x16384_S4x512x16384_2_1_1_2_0_0.contr.Idx) :
    (dot_S4x512x512_S4x512x16384_S4x512x16384_2_1_1_2_0_0.lhsIdx i q 1).val = (i 1).val := by
  unfold DotDims.lhsIdx
  rw [dif_neg (show ¬(1 : Fin S4x512x512.rank) ∈ dot_S4x512x512_S4x512x16384_S4x512x16384_2_1_1_2_0_0.lhsBatch by decide),
    dif_pos (show (1 : Fin S4x512x512.rank) ∈ dot_S4x512x512_S4x512x16384_S4x512x16384_2_1_1_2_0_0.lhsNonContracting by decide)]
  rfl

theorem projL2 (i : S4x512x16384.Idx) (q : dot_S4x512x512_S4x512x16384_S4x512x16384_2_1_1_2_0_0.contr.Idx) :
    (dot_S4x512x512_S4x512x16384_S4x512x16384_2_1_1_2_0_0.lhsIdx i q 2).val = (q ⟨0, by decide⟩).val :=
  dot_S4x512x512_S4x512x16384_S4x512x16384_2_1_1_2_0_0.lhsIdx_val_of_single rfl i q

theorem projR0 (i : S4x512x16384.Idx) (q : dot_S4x512x512_S4x512x16384_S4x512x16384_2_1_1_2_0_0.contr.Idx) :
    (dot_S4x512x512_S4x512x16384_S4x512x16384_2_1_1_2_0_0.rhsIdx i q 0).val = (i 0).val := by
  unfold DotDims.rhsIdx
  rw [dif_pos (show (0 : Fin S4x512x16384.rank) ∈ dot_S4x512x512_S4x512x16384_S4x512x16384_2_1_1_2_0_0.rhsBatch by decide)]
  rfl

theorem projR1 (i : S4x512x16384.Idx) (q : dot_S4x512x512_S4x512x16384_S4x512x16384_2_1_1_2_0_0.contr.Idx) :
    (dot_S4x512x512_S4x512x16384_S4x512x16384_2_1_1_2_0_0.rhsIdx i q 1).val = (q ⟨0, by decide⟩).val :=
  dot_S4x512x512_S4x512x16384_S4x512x16384_2_1_1_2_0_0.rhsIdx_val_of_single rfl i q

theorem projR2 (i : S4x512x16384.Idx) (q : dot_S4x512x512_S4x512x16384_S4x512x16384_2_1_1_2_0_0.contr.Idx) :
    (dot_S4x512x512_S4x512x16384_S4x512x16384_2_1_1_2_0_0.rhsIdx i q 2).val = (i 2).val := by
  unfold DotDims.rhsIdx
  rw [dif_neg (show ¬(2 : Fin S4x512x16384.rank) ∈ dot_S4x512x512_S4x512x16384_S4x512x16384_2_1_1_2_0_0.rhsBatch by decide),
    dif_pos (show (2 : Fin S4x512x16384.rank) ∈ dot_S4x512x512_S4x512x16384_S4x512x16384_2_1_1_2_0_0.rhsNonContracting by decide)]
  rfl

/-- The product of a 4 × 512 × 512 array with a 4 × 512 × 16384 array: at (g, d, n) the sum over the channels e of
    the entries (g, d, e) and (g, e, n). -/
theorem proj_apply (B : FVec Ideal S4x512x512 .f32) (Y : FVec Ideal S4x512x16384 .f32) (g : Fin 4) (d : Fin 512) (n : Fin 16384) :
    Host.dotGeneral (F := Ideal) dot_S4x512x512_S4x512x16384_S4x512x16384_2_1_1_2_0_0 none B Y (ix3 g d n)
      = ∑ e : Fin 512, B (ix3 g d e) * Y (ix3 g e n) := by
  refine dotGeneral_single_apply dot_S4x512x512_S4x512x16384_S4x512x16384_2_1_1_2_0_0 none .single rfl rfl B Y (ix3 g d n)
    (fun e => ix3 g d e) (fun e => ix3 g e n) (fun k => ?_) (fun k => ?_)
  · have hk := contrEquiv1_symm_val dot_S4x512x512_S4x512x16384_S4x512x16384_2_1_1_2_0_0 512 rfl rfl k
    refine funext fun a => Fin.ext ?_
    match a with
    | ⟨0, _⟩ => exact projL0 _ _
    | ⟨1, _⟩ => exact projL1 _ _
    | ⟨2, _⟩ => exact (projL2 _ _).trans hk
  · have hk := contrEquiv1_symm_val dot_S4x512x512_S4x512x16384_S4x512x16384_2_1_1_2_0_0 512 rfl rfl k
    refine funext fun a => Fin.ext ?_
    match a with
    | ⟨0, _⟩ => exact projR0 _ _
    | ⟨1, _⟩ => exact (projR1 _ _).trans hk
    | ⟨2, _⟩ => exact projR2 _ _

variable (V0 : Valuation τ sig (Elt Ideal))

/-- The centred samples of the reference: each entry minus its group's column mean. -/
theorem cen_apply (g : Fin 4) (n : Fin 16384) (d : Fin 512) :
    res_main_v6 (F := Ideal) V0 (ix3 g n d) = Cert.Whiten.cen (res_main_v0 (F := Ideal) V0) g n d := by
  unfold res_main_v6
  rw [subf_apply, bcast_row_apply, mean_apply]
  rfl

/-- The regularised second moment of the reference: the centred second moment plus the small constant times the
    identity mask. -/
theorem S_apply (g : Fin 4) (d e : Fin 512) :
    res_main_v18 (F := Ideal) V0 (ix3 g d e)
      = Cert.Whiten.cov (res_main_v0 (F := Ideal) V0) g d e
        + Ideal.ofBits .f32 0x3727C5AC#32 * res_main_v14 (F := Ideal) V0 (ix3 (0 : Fin 1) d e) := by
  unfold res_main_v18
  rw [addf_apply, gram_apply, bcast_group_apply, mulf_apply, broadcastInDim_scalar_apply, constant_apply]
  unfold Cert.Whiten.cov
  simp only [cen_apply]

/-- The reference's last operations before its final reshape, for any 4 × 512 × 512 matrix `B` in place of the
    iterated one: at (g, n, d) the sum over the channels e of B (g, d, e) times the centred sample (g, n, e), over the
    square root of the group's norm. -/
theorem out_apply (B : FVec Ideal S4x512x512 .f32) (g : Fin 4) (n : Fin 16384) (d : Fin 512) :
    transpose S4x16384x512 [0, 2, 1] (Host.divf (Host.dotGeneral (φ₂ := .f32) dot_S4x512x512_S4x512x16384_S4x512x16384_2_1_1_2_0_0 none B
        (transpose S4x512x16384 [0, 2, 1] (res_main_v6 (F := Ideal) V0) transposes_S4x16384x512_S4x512x16384_0_2_1))
        (broadcastInDim S4x512x16384 ![0, 1, 2] bcast_S4x1x1_S4x512x16384_0_1_2 (Host.sqrt (res_main_v22 (F := Ideal) V0))))
        transposes_S4x512x16384_S4x16384x512_0_2_1 (ix3 g n d)
      = Ideal.div (∑ e : Fin 512, B (ix3 g d e) * res_main_v6 (F := Ideal) V0 (ix3 g n e))
          (Ideal.sqrt (res_main_v22 (F := Ideal) V0 (ix3 g (0 : Fin 1) (0 : Fin 1)))) := by
  rw [transpose_out_apply, hostDivf_apply, proj_apply, bcast_norm_apply]
  refine congrArg₂ Ideal.div (Finset.sum_congr rfl fun e _ => congrArg (B (ix3 g d e) * ·) ?_) rfl
  exact transpose_in_apply (res_main_v6 (F := Ideal) V0) g e n

end Cert.ReferenceIdeal.RefValue

end
-- ==== Proof.RefBridge.lean ====
/-
  The reference's half of the bridge.  Its result before the last reshape is, at (g, n, d), the sum over the channels
  e of B (g, d, e) times the centred sample (g, n, e), over the square root of the group's norm.  When the input is
  finite, the regularised second moment is a real array whose corner entries are nonzero (a centred second moment on
  the diagonal is a sum of squares, and the small constant times the identity adds a positive amount), so each
  group's norm is a positive real.
-/
import proofs.«101521_j38826504356590_2_alg».proof.Proof.RefChain
import proofs.«101521_j38826504356590_2_alg».proof.Proof.RefRead
import proofs.«101521_j38826504356590_2_alg».proof.Proof.Core

noncomputable section

open scoped BigOperators

namespace Cert.ReferenceIdeal.RefBridge

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

variable (V0 : Valuation τ sig (Elt Ideal))

/-- The result before the last reshape, at (g, n, d): Σₑ B (g, d, e) · (centred sample (g, n, e)), over the root of
    the group's norm. -/
theorem out3_apply (g : Fin 4) (n : Fin 16384) (d : Fin 512) :
    RefChain.out3 V0 (ix3 g n d)
      = Ideal.div (∑ e : Fin 512, RefChain.B V0 (ix3 g d e) * Cert.Whiten.cen (res_main_v0 (F := Ideal) V0) g n e)
          (Ideal.sqrt (RefChain.nrm V0 (ix3 g (0 : Fin 1) (0 : Fin 1)))) := by
  unfold RefChain.out3
  refine (RefValue.out_apply V0 (RefChain.B V0) g n d).trans ?_
  refine congrArg₂ Ideal.div (Finset.sum_congr rfl fun e _ => ?_) rfl
  rw [RefValue.cen_apply]

/-- For a finite input the regularised second moment is a real array, nonzero at each group's corner. -/
theorem S_facts (z : Cert.Whiten.SZ.Idx → ℝ)
    (hz : ∀ i, (res_main_v0 (F := Ideal) V0 : Cert.Whiten.SZ.Idx → EReal) i = (z i : EReal)) :
    ∃ σ : Cert.Whiten.SB.Idx → ℝ, (∀ i, (res_main_v18 (F := Ideal) V0 : Cert.Whiten.SB.Idx → EReal) i = (σ i : EReal))
      ∧ ∀ g : Fin 4, σ (ix3 g (0 : Fin 512) (0 : Fin 512)) ≠ 0 :=
  Cert.Whiten.S_real_corner (res_main_v0 (F := Ideal) V0) z hz (res_main_v14 (F := Ideal) V0)
    (fun d e => by rw [RefChain.eye_eq]; exact Cert.Whiten.eye1_nonneg _ _ d e)
    (by rw [RefChain.eye_eq]; exact Cert.Whiten.eye1_corner _ _)
    (res_main_v18 (F := Ideal) V0) (fun g d e => RefValue.S_apply V0 g d e)

/-- So each group's norm is a positive real. -/
theorem nrm_pos (z : Cert.Whiten.SZ.Idx → ℝ)
    (hz : ∀ i, (res_main_v0 (F := Ideal) V0 : Cert.Whiten.SZ.Idx → EReal) i = (z i : EReal)) (g : Fin 4) :
    ∃ r : ℝ, 0 < r ∧ RefChain.nrm V0 (ix3 g (0 : Fin 1) (0 : Fin 1)) = (r : EReal) := by
  obtain ⟨σ, hσ, hne⟩ := S_facts V0 z hz
  have h := Cert.Whiten.nrm_pos reducesTo_S4x512x512_S4_d1_2 h_S_ bcast_S4_S4x1x1_0 (res_main_v18 (F := Ideal) V0) σ hσ g (hne g)
  rw [← RefChain.nrm_eq V0] at h
  exact h

end Cert.ReferenceIdeal.RefBridge

end
-- ==== Proof.Finite.lean ====
/-
  Finiteness of the input from the precondition.  The precondition says that the conjunction, over every entry of the
  16384 × 2048 input, of "the absolute value is below +∞" is true.  A conjunction over all entries that is true is true
  at each entry; the absolute value of an extended real is the larger of it and its negation; so neither +∞ nor −∞ can
  be an entry, and every entry is a real number.
-/
import proofs.«101521_j38826504356590_2_alg».proof.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.Finite

open Idealize.ShloMosaic Idealize.ShloMosaic.ValueIdx

/-- The rank-0 shape has one index. -/
instance : Subsingleton Cert.Pre_finite_inputs.S_.Idx := ⟨fun a b => funext fun d => d.elim0⟩

/-- The word `0x7F800000` is +∞. -/
theorem infWord : Ideal.ofBits .f32 0x7F800000#32 = (⊤ : EReal) := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every entry of the input is a real number. -/
theorem real_of_pre [hP : Cert.Pre_finite_inputs.Facts] (x : FVec Ideal Cert.Pre_finite_inputs.S16384x2048 .f32)
    (h : Cert.Pre_finite_inputs.fn (F := Ideal) x = fun _ => 1#1) : ∀ i, ∃ r : ℝ, x i = (r : EReal) := by
  intro i
  have h0 := congrFun h ix0
  dsimp only [Cert.Pre_finite_inputs.fn] at h0
  have hi := Host.reduce_andi_all _ _ _ _ ix0 h0 i
  rw [cmpf_apply, broadcastInDim_scalar_apply, constant_apply, infWord] at hi
  refine real_of_abs_lt_top (x i) ?_
  have hc : Ideal.cmp .olt (max (x i) (-(x i))) ⊤ = 1#1 := hi
  unfold Ideal.cmp at hc
  by_contra hn
  simp [hn] at hc

end Cert.Finite

end
-- ==== Proof.Bridge.lean ====
/-
  The two programs compute the same array.  Both reshape the input to Z (4 × 16384 × 512) and reshape their
  4 × 16384 × 512 result back, so it is enough that those results agree.  The kernel's is
  Σₑ (Z − mean Z)(g, n, e) · B_k(g, d, e) / √ν_k and the reference's (Σₑ B_r(g, d, e) · (Z − mean Z)(g, n, e)) / √ν_r,
  where B and ν are ONE function of the regularised covariance.  For finite inputs the two covariances are the same
  array (gram − N · mean · meanᵀ = centred second moment), so B_k = B_r and ν_k = ν_r; ν is a positive real, and
  dividing each term by √ν is dividing the sum.
-/
import proofs.«101521_j38826504356590_2_alg».proof.Defs
import proofs.«101521_j38826504356590_2_alg».proof.Proof.KRun
import proofs.«101521_j38826504356590_2_alg».proof.Proof.KBridge
import proofs.«101521_j38826504356590_2_alg».proof.Proof.RefBridge
import proofs.«101521_j38826504356590_2_alg».proof.Proof.Finite
import proofs.«101521_j38826504356590_2_alg».proof.Proof.Gen.Kernel.Frame
import proofs.«101521_j38826504356590_2_alg».proof.Proof.Gen.Pre_finite_inputs

noncomputable section

open scoped BigOperators

namespace Cert.Proof.Bridge

open Idealize.ShloMosaic Idealize.ShloMosaic.TcCoe Idealize.SL.Sem Idealize.ShloMosaic.ValueIdx Idealize.ShloMosaic.StableHlo

/-- The results before the last reshape agree, for a finite input on which the two memories agree. -/
theorem arrays_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hfin : ∀ i, ∃ r : ℝ, (m ((c.tc : Thread Cert.KernelIdeal.nD Cert.KernelIdeal.τ).loc Cert.KernelIdeal.main_arg0)
      : FVec Ideal Cert.KernelIdeal.S16384x2048 .f32) i = (r : EReal))
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    ((Cert.KernelIdeal.Gen.dat1 (F := Ideal) (Cert.KernelIdeal.Gen.V3 m ρ) c).arrAt 3 Cert.KernelIdeal.cfg1.N
        : Cert.Whiten.SZ.Idx → EReal)
      = Cert.ReferenceIdeal.RefChain.out3 (launchContents m' c) := by
  -- the samples are one array
  have hZ : (Cert.ReferenceIdeal.Value.res_main_v0 (F := Ideal) (launchContents m' c) : Cert.Whiten.SZ.Idx → EReal)
      = Cert.KernelIdeal.KBridge.Zk m ρ c := by
    rw [show Cert.KernelIdeal.KBridge.Zk m ρ c = _ from Cert.KernelIdeal.KHost.V1_v0 m ρ c]
    unfold Cert.ReferenceIdeal.Value.res_main_v0
    rw [show launchContents m' c (Proc.devRef .tc Cert.ReferenceIdeal.main_arg0)
      = m' ((c.tc : Thread Cert.ReferenceIdeal.nD Cert.ReferenceIdeal.τ).loc Cert.ReferenceIdeal.main_arg0) from rfl, hagree]
    rfl
  -- and finite
  have hreal : ∀ i, ∃ r : ℝ, Cert.KernelIdeal.KBridge.Zk m ρ c i = (r : EReal) := by
    rw [show Cert.KernelIdeal.KBridge.Zk m ρ c = _ from Cert.KernelIdeal.KHost.V1_v0 m ρ c]
    intro i
    unfold shapeCast
    exact hfin _
  choose z hz using hreal
  have hz' : ∀ i, (Cert.ReferenceIdeal.Value.res_main_v0 (F := Ideal) (launchContents m' c) : Cert.Whiten.SZ.Idx → EReal) i = (z i : EReal) := by
    rw [hZ]; exact hz
  -- the regularised covariances are one array
  have hS : Cert.KernelIdeal.KHost.kS (Cert.KernelIdeal.KHost.sumArr m ρ c) (Cert.KernelIdeal.KHost.gramArr m ρ c)
      = (Cert.ReferenceIdeal.Value.res_main_v18 (F := Ideal) (launchContents m' c) : Cert.Whiten.SB.Idx → EReal) := by
    funext i
    obtain ⟨g, d, e, rfl⟩ : ∃ (g : Fin 4) (d e : Fin 512), i = ix3 g d e := ⟨i 0, i 1, i 2, eq_ix3 i⟩
    rw [Cert.KernelIdeal.KBridge.kS_cov m ρ c z hz g d e, Cert.ReferenceIdeal.RefValue.S_apply (launchContents m' c) g d e, hZ,
      Cert.ReferenceIdeal.RefChain.eye_eq]
  -- hence the norms and the Newton–Schulz matrices
  have hN : Cert.KernelIdeal.KHost.kNrm (Cert.KernelIdeal.KHost.sumArr m ρ c) (Cert.KernelIdeal.KHost.gramArr m ρ c)
      = Cert.ReferenceIdeal.RefChain.nrm (launchContents m' c) := by
    unfold Cert.KernelIdeal.KHost.kNrm
    rw [hS]
    rfl
  have hB : Cert.KernelIdeal.KHost.kB (Cert.KernelIdeal.KHost.sumArr m ρ c) (Cert.KernelIdeal.KHost.gramArr m ρ c)
      = Cert.ReferenceIdeal.RefChain.B (launchContents m' c) := by
    unfold Cert.KernelIdeal.KHost.kB
    rw [hN, hS]
    rfl
  funext i
  obtain ⟨g, n, d, rfl⟩ : ∃ (g : Fin 4) (n : Fin 16384) (d : Fin 512), i = ix3 g n d := ⟨i 0, i 1, i 2, eq_ix3 i⟩
  obtain ⟨r, hr, hν⟩ := Cert.ReferenceIdeal.RefBridge.nrm_pos (launchContents m' c) z hz' g
  rw [Cert.KernelIdeal.KBridge.out_apply m ρ c g n d, Cert.ReferenceIdeal.RefBridge.out3_apply (launchContents m' c) g n d, hB, hN, hZ]
  exact Cert.Whiten.whiten_eq _ _ _ r hr hν g n d

end Cert.Proof.Bridge

end
-- ==== Proof.lean ====
/-
  Group whitening of a 16384 × 2048 input read as 4 groups of 16384 samples of 512 channels: centre each group's
  samples, form the regularised covariance S = Zcᵀ Zc + eps · I, divide it by its Frobenius norm ν, run five
  Newton–Schulz steps B ↦ 1.5 B − 0.5 B³ Sₙ from the identity, and return B Zcᵀ / √ν, laid out as the input.

  The kernel program makes two passes over the samples.  The first accumulates, block of samples by block, the
  column sums and the UNCENTRED second moment Zᵀ Z; host operations then form the mean, recover the covariance as
  Zᵀ Z − N · mean · meanᵀ + eps · I, and scale the transposed Newton–Schulz matrix by 1/√ν; the second pass centres
  each block and multiplies it by that matrix.  The reference centres first and divides last.

  At the extended reals the two agree for finite inputs: Zᵀ Z − N · mean · meanᵀ = Zcᵀ Zc is an identity of real
  sums (Proof/Algebra.lean); the norm, its square root and the Newton–Schulz matrix are one function of S on both
  sides (Proof/Chain.lean) and are never opened beyond the norm being a positive real (Proof/Norm.lean,
  Proof/Core.lean); and dividing each term of a sum by a positive real is dividing the sum (Proof/Algebra.lean), so
  the second pass's product with the pre-scaled matrix is the reference's product divided afterwards.
  The frames are the generated ones; the reference's is its generated run with the result dropped; the idealization
  rewrote nothing, so it is preserved trivially.
-/
import proofs.«101521_j38826504356590_2_alg».proof.Defs
import proofs.«101521_j38826504356590_2_alg».proof.Proof.Gen.Kernel
import proofs.«101521_j38826504356590_2_alg».proof.Proof.Gen.Kernel.Skeleton
import proofs.«101521_j38826504356590_2_alg».proof.Proof.Gen.Kernel.Launch
import proofs.«101521_j38826504356590_2_alg».proof.Proof.Gen.Kernel.Points
import proofs.«101521_j38826504356590_2_alg».proof.Proof.Gen.Kernel.Frame
import proofs.«101521_j38826504356590_2_alg».proof.Proof.Gen.KernelIdeal
import proofs.«101521_j38826504356590_2_alg».proof.Proof.Gen.KernelIdeal.Skeleton
import proofs.«101521_j38826504356590_2_alg».proof.Proof.Gen.KernelIdeal.Launch
import proofs.«101521_j38826504356590_2_alg».proof.Proof.Gen.KernelIdeal.Points
import proofs.«101521_j38826504356590_2_alg».proof.Proof.Gen.KernelIdeal.Frame
import proofs.«101521_j38826504356590_2_alg».proof.Proof.Gen.ReferenceIdeal
import proofs.«101521_j38826504356590_2_alg».proof.Proof.Gen.ReferenceIdeal.Run
import proofs.«101521_j38826504356590_2_alg».proof.Proof.Gen.Pre_finite_inputs
import proofs.«101521_j38826504356590_2_alg».proof.Proof.Bridge
import Idealize.ShloMosaic.Adequacy
import Idealize.ShloMosaic.Init

noncomputable section

namespace Cert.Proof

open Idealize.ShloMosaic Idealize.SL.Sem Idealize.ShloMosaic.StableHlo

/-- The kernel program runs and leaves its argument unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its argument unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on a finite input both idealized programs end with the same result: the reshape of one
    4 × 16384 × 512 array (`Bridge.arrays_eq`). -/
theorem algebraic : Cert.algebraic_KernelIdeal_ReferenceIdeal := by
  intro m ρ m' ρ' hpre hagree
  refine ⟨fun c => shapeCast Cert.ReferenceIdeal.S16384x2048 (Cert.ReferenceIdeal.RefChain.out3 (launchContents m' c))
      Cert.ReferenceIdeal.Gen.shapeCasts_S4x16384x512_S16384x2048, ?_, Cert.ReferenceIdeal.RefChain.run3 m' ρ'⟩
  refine (θ_run Cert.KernelIdeal.defs _ _).mono (fun r h c => ⟨(h c).1.trans ?_, (h c).2⟩)
    (Cert.KernelIdeal.RunValue.run_value (F := Ideal) m ρ)
  rw [Cert.KernelIdeal.KHost.W5_v77 m ρ c]
  exact congrArg (fun x => shapeCast Cert.ReferenceIdeal.S16384x2048 x Cert.ReferenceIdeal.Gen.shapeCasts_S4x16384x512_S16384x2048)
    (Bridge.arrays_eq m ρ m' c (Cert.Finite.real_of_pre _ (hpre c)) (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
